-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x441000 : Shape := ⟨3, ![32, 1, 441000]⟩
abbrev S2049x4096 : Shape := ⟨2, ![2049, 4096]⟩
abbrev S_ : Shape := ⟨0, ![]⟩

class Facts : Prop where
  bcast_S_S32x1x441000 : S_.BroadcastsInDim S32x1x441000 (![] : Fin 0 → Fin S32x1x441000.rank)
  reducesTo_S32x1x441000_S_d0_1_2 : S32x1x441000.ReducesTo [0, 1, 2] S_
  h_S_ : 0 < S_.numel
  bcast_S_S2049x4096 : S_.BroadcastsInDim S2049x4096 (![] : Fin 0 → Fin S2049x4096.rank)
  reducesTo_S2049x4096_S_d0_1 : S2049x4096.ReducesTo [0, 1] S_

variable [Facts]

def fn {F : FTy → Type} [FloatOps F] (main_arg0 : FVec F S32x1x441000 .f32) (main_arg1 : FVec F S2049x4096 .f32) (main_arg2 : FVec F S2049x4096 .f32) : IVec S_ 1 :=
  let main_v0 : FVec F S32x1x441000 .f32 := Host.absf main_arg0
  let main_cst : FVec F S_ .f32 := constant S_ .f32 0x7F800000#32
  let main_v1 : FVec F S32x1x441000 .f32 := broadcastInDim S32x1x441000 ![] bcast_S_S32x1x441000 main_cst
  let main_v2 : IVec S32x1x441000 1 := cmpf .olt main_v0 main_v1
  let main_c : IVec S_ 1 := constantI S_ 1 1#1
  let main_v3 : IVec S_ 1 := (fun x v => Host.reduce IntOp.andi x v reducesTo_S32x1x441000_S_d0_1_2 h_S_) main_v2 main_c
  let main_v4 : FVec F S2049x4096 .f32 := Host.absf main_arg1
  let main_cst_0 : FVec F S_ .f32 := constant S_ .f32 0x7F800000#32
  let main_v5 : FVec F S2049x4096 .f32 := broadcastInDim S2049x4096 ![] bcast_S_S2049x4096 main_cst_0
  let main_v6 : IVec S2049x4096 1 := cmpf .olt main_v4 main_v5
  let main_c_1 : IVec S_ 1 := constantI S_ 1 1#1
  let main_v7 : IVec S_ 1 := (fun x v => Host.reduce IntOp.andi x v reducesTo_S2049x4096_S_d0_1 h_S_) main_v6 main_c_1
  let main_v8 : IVec S_ 1 := andi main_v3 main_v7
  let main_v9 : FVec F S2049x4096 .f32 := Host.absf main_arg2
  let main_cst_2 : FVec F S_ .f32 := constant S_ .f32 0x7F800000#32
  let main_v10 : FVec F S2049x4096 .f32 := broadcastInDim S2049x4096 ![] bcast_S_S2049x4096 main_cst_2
  let main_v11 : IVec S2049x4096 1 := cmpf .olt main_v9 main_v10
  let main_c_3 : IVec S_ 1 := constantI S_ 1 1#1
  let main_v12 : IVec S_ 1 := (fun x v => Host.reduce IntOp.andi x v reducesTo_S2049x4096_S_d0_1 h_S_) main_v11 main_c_3
  let main_v13 : IVec S_ 1 := andi main_v8 main_v12
  main_v13
-- ==== Kernel.lean ====
abbrev S32x1x441000 : Shape := ⟨3, ![32, 1, 441000]⟩
abbrev S2049x4096 : Shape := ⟨2, ![2049, 4096]⟩
abbrev S_ : Shape := ⟨0, ![]⟩
abbrev S32x1x1 : Shape := ⟨3, ![32, 1, 1]⟩
abbrev S32x1x2048 : Shape := ⟨3, ![32, 1, 2048]⟩
abbrev S32x1x443048 : Shape := ⟨3, ![32, 1, 443048]⟩
abbrev S32x1x445096 : Shape := ⟨3, ![32, 1, 445096]⟩
abbrev S32x445096 : Shape := ⟨2, ![32, 445096]⟩
abbrev S431 : Shape := ⟨1, ![431]⟩
abbrev S431x1 : Shape := ⟨2, ![431, 1]⟩
abbrev S4096 : Shape := ⟨1, ![4096]⟩
abbrev S1x4096 : Shape := ⟨2, ![1, 4096]⟩
abbrev S431x4096 : Shape := ⟨2, ![431, 4096]⟩
abbrev S431x4096x1 : Shape := ⟨3, ![431, 4096, 1]⟩
abbrev S32x431x4096 : Shape := ⟨3, ![32, 431, 4096]⟩
abbrev S32x432x4096 : Shape := ⟨3, ![32, 432, 4096]⟩
abbrev S2304x4096 : Shape := ⟨2, ![2304, 4096]⟩
abbrev S32x2304x432 : Shape := ⟨3, ![32, 2304, 432]⟩
abbrev S1x432x4096 : Shape := ⟨3, ![1, 432, 4096]⟩
abbrev S256x4096 : Shape := ⟨2, ![256, 4096]⟩
abbrev S1x256x432 : Shape := ⟨3, ![1, 256, 432]⟩
abbrev S432x4096 : Shape := ⟨2, ![432, 4096]⟩
abbrev S256x432 : Shape := ⟨2, ![256, 432]⟩
abbrev S32x2049x431 : Shape := ⟨3, ![32, 2049, 431]⟩
abbrev S32x2049x431x1 : Shape := ⟨4, ![32, 2049, 431, 1]⟩
abbrev S32x2049x431x2 : Shape := ⟨4, ![32, 2049, 431, 2]⟩

abbrev nBuf : Space → Nat
  | .hbm => 51
  | .vmem => 10
  | .smem => 0
  | _ => 0

abbrev bufTy : (tb : Table) → Fin (tcTables nBuf tb) → BufTy
  | .hbm, ⟨0, _⟩ => ⟨S32x1x441000, .f32⟩
  | .hbm, ⟨1, _⟩ => ⟨S2049x4096, .f32⟩
  | .hbm, ⟨2, _⟩ => ⟨S2049x4096, .f32⟩
  | .hbm, ⟨3, _⟩ => ⟨S_, .i32⟩
  | .hbm, ⟨4, _⟩ => ⟨S32x1x1, .f32⟩
  | .hbm, ⟨5, _⟩ => ⟨S32x1x2048, .f32⟩
  | .hbm, ⟨6, _⟩ => ⟨S32x1x2048, .f32⟩
  | .hbm, ⟨7, _⟩ => ⟨S32x1x443048, .f32⟩
  | .hbm, ⟨8, _⟩ => ⟨S32x1x1, .f32⟩
  | .hbm, ⟨9, _⟩ => ⟨S32x1x2048, .f32⟩
  | .hbm, ⟨10, _⟩ => ⟨S32x1x2048, .f32⟩
  | .hbm, ⟨11, _⟩ => ⟨S32x1x445096, .f32⟩
  | .hbm, ⟨12, _⟩ => ⟨S32x445096, .f32⟩
  | .hbm, ⟨13, _⟩ => ⟨S32x445096, .bf16⟩
  | .hbm, ⟨14, _⟩ => ⟨S431, .i32⟩
  | .hbm, ⟨15, _⟩ => ⟨S431x1, .i32⟩
  | .hbm, ⟨16, _⟩ => ⟨S_, .i32⟩
  | .hbm, ⟨17, _⟩ => ⟨S431x1, .i32⟩
  | .hbm, ⟨18, _⟩ => ⟨S431x1, .i32⟩
  | .hbm, ⟨19, _⟩ => ⟨S4096, .i32⟩
  | .hbm, ⟨20, _⟩ => ⟨S1x4096, .i32⟩
  | .hbm, ⟨21, _⟩ => ⟨S431x4096, .i32⟩
  | .hbm, ⟨22, _⟩ => ⟨S431x4096, .i32⟩
  | .hbm, ⟨23, _⟩ => ⟨S431x4096, .i32⟩
  | .hbm, ⟨24, _⟩ => ⟨S_, .i32⟩
  | .hbm, ⟨25, _⟩ => ⟨S431x4096, .i32⟩
  | .hbm, ⟨26, _⟩ => ⟨S431x4096, .i1⟩
  | .hbm, ⟨27, _⟩ => ⟨S_, .i32⟩
  | .hbm, ⟨28, _⟩ => ⟨S431x4096, .i32⟩
  | .hbm, ⟨29, _⟩ => ⟨S431x4096, .i32⟩
  | .hbm, ⟨30, _⟩ => ⟨S431x4096, .i32⟩
  | .hbm, ⟨31, _⟩ => ⟨S431x4096x1, .i32⟩
  | .hbm, ⟨32, _⟩ => ⟨S32x431x4096, .bf16⟩
  | .hbm, ⟨33, _⟩ => ⟨S_, .i32⟩
  | .hbm, ⟨34, _⟩ => ⟨S_, .bf16⟩
  | .hbm, ⟨35, _⟩ => ⟨S32x432x4096, .bf16⟩
  | .hbm, ⟨36, _⟩ => ⟨S_, .i32⟩
  | .hbm, ⟨37, _⟩ => ⟨S_, .f32⟩
  | .hbm, ⟨38, _⟩ => ⟨S2304x4096, .f32⟩
  | .hbm, ⟨39, _⟩ => ⟨S2304x4096, .bf16⟩
  | .hbm, ⟨40, _⟩ => ⟨S_, .i32⟩
  | .hbm, ⟨41, _⟩ => ⟨S_, .f32⟩
  | .hbm, ⟨42, _⟩ => ⟨S2304x4096, .f32⟩
  | .hbm, ⟨43, _⟩ => ⟨S2304x4096, .bf16⟩
  | .hbm, ⟨44, _⟩ => ⟨S32x2304x432, .f32⟩
  | .hbm, ⟨45, _⟩ => ⟨S32x2304x432, .f32⟩
  | .hbm, ⟨46, _⟩ => ⟨S32x2049x431, .f32⟩
  | .hbm, ⟨47, _⟩ => ⟨S32x2049x431, .f32⟩
  | .hbm, ⟨48, _⟩ => ⟨S32x2049x431x1, .f32⟩
  | .hbm, ⟨49, _⟩ => ⟨S32x2049x431x1, .f32⟩
  | .hbm, ⟨50, _⟩ => ⟨S32x2049x431x2, .f32⟩
  | .local _ .vmem, ⟨0, _⟩ => ⟨S1x432x4096, .bf16⟩
  | .local _ .vmem, ⟨1, _⟩ => ⟨S1x432x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x256x432, .f32⟩
  | .local _ .vmem, ⟨7, _⟩ => ⟨S1x256x432, .f32⟩
  | .local _ .vmem, ⟨8, _⟩ => ⟨S1x256x432, .f32⟩
  | .local _ .vmem, ⟨9, _⟩ => ⟨S1x256x432, .f32⟩
  | _, _ => ⟨S32x1x441000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_call1_v0 : Ref sig .tc := ⟨.hbm, 34, rfl⟩
abbrev main_v19 : Ref sig .tc := ⟨.hbm, 35, rfl⟩
abbrev main_c_4 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x432x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S32x1x441000_S32x1x1_0_0_0 : S32x1x441000.Slices ![0, 0, 0] S32x1x1
  slices_S32x1x441000_S32x1x2048_0_0_1 : S32x1x441000.Slices ![0, 0, 1] S32x1x2048
  concatenates_S32x1x2048_S32x1x441000_S32x1x443048_d2 : Shape.Concatenates [S32x1x2048, S32x1x441000] S32x1x443048 2
  slices_S32x1x443048_S32x1x1_0_0_443047 : S32x1x443048.Slices ![0, 0, 443047] S32x1x1
  slices_S32x1x443048_S32x1x2048_0_0_440999 : S32x1x443048.Slices ![0, 0, 440999] S32x1x2048
  concatenates_S32x1x443048_S32x1x2048_S32x1x445096_d2 : Shape.Concatenates [S32x1x443048, S32x1x2048] S32x1x445096 2
  shapeCasts_S32x1x445096_S32x445096 : S32x1x445096.ShapeCasts S32x445096
  bitsLt_bf16_f32 : FTy.bits .bf16 < FTy.bits .f32
  bcast_S431_S431x1_0 : S431.BroadcastsInDim S431x1 (![0] : Fin 1 → Fin S431x1.rank)
  bcast_S_S431x1 : S_.BroadcastsInDim S431x1 (![] : Fin 0 → Fin S431x1.rank)
  bcast_S4096_S1x4096_1 : S4096.BroadcastsInDim S1x4096 (![1] : Fin 1 → Fin S1x4096.rank)
  bcast_S431x1_S431x4096_0_1 : S431x1.BroadcastsInDim S431x4096 (![0, 1] : Fin 2 → Fin S431x4096.rank)
  bcast_S1x4096_S431x4096_0_1 : S1x4096.BroadcastsInDim S431x4096 (![0, 1] : Fin 2 → Fin S431x4096.rank)
  bcast_S_S431x4096 : S_.BroadcastsInDim S431x4096 (![] : Fin 0 → Fin S431x4096.rank)
  bcast_S431x4096_S431x4096x1_0_1 : S431x4096.BroadcastsInDim S431x4096x1 (![0, 1] : Fin 2 → Fin S431x4096x1.rank)
  pads_S32x431x4096_S32x432x4096_000_010_000 : S32x431x4096.Pads (![0, 0, 0] : Fin 3 → Nat) ![0, 1, 0] ![0, 0, 0] S32x432x4096
  h_S_ : 0 < S_.numel
  pads_S2049x4096_S2304x4096_02550_000 : S2049x4096.Pads (![0, 0] : Fin 2 → Nat) ![255, 0] ![0, 0] S2304x4096
  inb_S1x432x4096_S1x432x4096_0_0_0 : ∀ a, (![0, 0, 0] : Fin 3 → Nat) a + S1x432x4096.size a ≤ S1x432x4096.size a
  h_S1x432x4096 : 0 < S1x432x4096.numel
  shapeCasts_S1x432x4096_S432x4096 : S1x432x4096.ShapeCasts S432x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x432_S1x256x432_0_0_0 : ∀ a, (![0, 0, 0] : Fin 3 → Nat) a + S1x256x432.size a ≤ S1x256x432.size a
  h_S1x256x432 : 0 < S1x256x432.numel
  shapeCasts_S1x256x432_S256x432 : S1x256x432.ShapeCasts S256x432
  shapeCasts_S256x432_S1x256x432 : S256x432.ShapeCasts S1x256x432
  slices_S32x2304x432_S32x2049x431_0_0_0 : S32x2304x432.Slices ![0, 0, 0] S32x2049x431
  bcast_S32x2049x431_S32x2049x431x1_0_1_2 : S32x2049x431.BroadcastsInDim S32x2049x431x1 (![0, 1, 2] : Fin 3 → Fin S32x2049x431x1.rank)
  concatenates_S32x2049x431x1_S32x2049x431x1_S32x2049x431x2_d3 : Shape.Concatenates [S32x2049x431x1, S32x2049x431x1] S32x2049x431x2 3
  gather_S32x445096_S431x4096x1_S32x431x4096_0_1_n_n_1_2_321_wf : GatherDims.WF S32x445096 S431x4096x1 S32x431x4096 [0] [1] [] [1] [] 2 ![32, 1]
  dot_S256x4096_S432x4096_S256x432_1_1_0_0_n_n_wf : DotDims.WF S256x4096 S432x4096 S256x432 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x432x4096.size a ≤ S32x432x4096.size a
  hwx0_0 : ∀ i : grid0.Coords, EltTy.bits .bf16 = 32 ∨ (Rect.block (s := S32x432x4096) S1x432x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2304x4096.size a
  hwx0_1 : ∀ i : grid0.Coords, EltTy.bits .bf16 = 32 ∨ (Rect.block (s := S2304x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2304x4096.size a
  hwx0_2 : ∀ i : grid0.Coords, EltTy.bits .bf16 = 32 ∨ (Rect.block (s := S2304x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x432.size a ≤ S32x2304x432.size a
  hwx0_3 : ∀ i : grid0.Coords, EltTy.bits .f32 = 32 ∨ (Rect.block (s := S32x2304x432) S1x256x432.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x432.size a ≤ S32x2304x432.size a
  hwx0_4 : ∀ i : grid0.Coords, EltTy.bits .f32 = 32 ∨ (Rect.block (s := S32x2304x432) S1x256x432.size (cc0_transform_4 i) (hinb0_4 i)).WholeWords (EltTy.packing .f32)

variable [Facts₀]

def gather_S32x445096_S431x4096x1_S32x431x4096_0_1_n_n_1_2_321 : GatherDims S32x445096 S431x4096x1 S32x431x4096 where
  offsetDims := [0]
  collapsedSliceDims := [1]
  operandBatchingDims := []
  startIndicesBatchingDims := []
  startIndexMap := [1]
  indexVectorDim := 2
  sliceSizes := ![32, 1]
  wf := gather_S32x445096_S431x4096x1_S32x431x4096_0_1_n_n_1_2_321_wf
def dot_S256x4096_S432x4096_S256x432_1_1_0_0_n_n : DotDims S256x4096 S432x4096 S256x432 where
  lhsContracting := [1]
  rhsContracting := [1]
  lhsNonContracting := [0]
  rhsNonContracting := [0]
  lhsBatch := []
  rhsBatch := []
  wf := dot_S256x4096_S432x4096_S256x432_1_1_0_0_n_n_wf

abbrev win0_0 : Pipeline.Window sig grid0 :=
  Pipeline.Window.ofSpec (Memref.whole main_v19) S1x432x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24_0) S1x256x432.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_1) S1x256x432.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1x441000 : Shape := ⟨3, ![32, 1, 441000]⟩
abbrev S2049x4096 : Shape := ⟨2, ![2049, 4096]⟩
abbrev S_ : Shape := ⟨0, ![]⟩
abbrev S32x1x1 : Shape := ⟨3, ![32, 1, 1]⟩
abbrev S32x1x2048 : Shape := ⟨3, ![32, 1, 2048]⟩
abbrev S32x1x443048 : Shape := ⟨3, ![32, 1, 443048]⟩
abbrev S32x1x445096 : Shape := ⟨3, ![32, 1, 445096]⟩
abbrev S431 : Shape := ⟨1, ![431]⟩
abbrev S431x1 : Shape := ⟨2, ![431, 1]⟩
abbrev S4096 : Shape := ⟨1, ![4096]⟩
abbrev S1x4096 : Shape := ⟨2, ![1, 4096]⟩
abbrev S431x4096 : Shape := ⟨2, ![431, 4096]⟩
abbrev S32x445096 : Shape := ⟨2, ![32, 445096]⟩
abbrev S431x4096x1 : Shape := ⟨3, ![431, 4096, 1]⟩
abbrev S32x431x4096 : Shape := ⟨3, ![32, 431, 4096]⟩
abbrev S2049x32x431 : Shape := ⟨3, ![2049, 32, 431]⟩
abbrev S32x2049x431 : Shape := ⟨3, ![32, 2049, 431]⟩
abbrev S32x2049x431x1 : Shape := ⟨4, ![32, 2049, 431, 1]⟩
abbrev S32x2049x431x2 : Shape := ⟨4, ![32, 2049, 431, 2]⟩

abbrev nBuf : Space → Nat
  | .hbm => 39
  | .vmem => 0
  | .smem => 0
  | _ => 0

abbrev bufTy : (tb : Table) → Fin (tcTables nBuf tb) → BufTy
  | .hbm, ⟨0, _⟩ => ⟨S32x1x441000, .f32⟩
  | .hbm, ⟨1, _⟩ => ⟨S2049x4096, .f32⟩
  | .hbm, ⟨2, _⟩ => ⟨S2049x4096, .f32⟩
  | .hbm, ⟨3, _⟩ => ⟨S_, .i32⟩
  | .hbm, ⟨4, _⟩ => ⟨S32x1x1, .f32⟩
  | .hbm, ⟨5, _⟩ => ⟨S32x1x2048, .f32⟩
  | .hbm, ⟨6, _⟩ => ⟨S32x1x2048, .f32⟩
  | .hbm, ⟨7, _⟩ => ⟨S32x1x443048, .f32⟩
  | .hbm, ⟨8, _⟩ => ⟨S32x1x1, .f32⟩
  | .hbm, ⟨9, _⟩ => ⟨S32x1x2048, .f32⟩
  | .hbm, ⟨10, _⟩ => ⟨S32x1x2048, .f32⟩
  | .hbm, ⟨11, _⟩ => ⟨S32x1x445096, .f32⟩
  | .hbm, ⟨12, _⟩ => ⟨S431, .i32⟩
  | .hbm, ⟨13, _⟩ => ⟨S431x1, .i32⟩
  | .hbm, ⟨14, _⟩ => ⟨S_, .i32⟩
  | .hbm, ⟨15, _⟩ => ⟨S431x1, .i32⟩
  | .hbm, ⟨16, _⟩ => ⟨S431x1, .i32⟩
  | .hbm, ⟨17, _⟩ => ⟨S4096, .i32⟩
  | .hbm, ⟨18, _⟩ => ⟨S1x4096, .i32⟩
  | .hbm, ⟨19, _⟩ => ⟨S431x4096, .i32⟩
  | .hbm, ⟨20, _⟩ => ⟨S431x4096, .i32⟩
  | .hbm, ⟨21, _⟩ => ⟨S431x4096, .i32⟩
  | .hbm, ⟨22, _⟩ => ⟨S32x445096, .f32⟩
  | .hbm, ⟨23, _⟩ => ⟨S_, .i32⟩
  | .hbm, ⟨24, _⟩ => ⟨S431x4096, .i32⟩
  | .hbm, ⟨25, _⟩ => ⟨S431x4096, .i1⟩
  | .hbm, ⟨26, _⟩ => ⟨S_, .i32⟩
  | .hbm, ⟨27, _⟩ => ⟨S431x4096, .i32⟩
  | .hbm, ⟨28, _⟩ => ⟨S431x4096, .i32⟩
  | .hbm, ⟨29, _⟩ => ⟨S431x4096, .i32⟩
  | .hbm, ⟨30, _⟩ => ⟨S431x4096x1, .i32⟩
  | .hbm, ⟨31, _⟩ => ⟨S32x431x4096, .f32⟩
  | .hbm, ⟨32, _⟩ => ⟨S2049x32x431, .f32⟩
  | .hbm, ⟨33, _⟩ => ⟨S32x2049x431, .f32⟩
  | .hbm, ⟨34, _⟩ => ⟨S2049x32x431, .f32⟩
  | .hbm, ⟨35, _⟩ => ⟨S32x2049x431, .f32⟩
  | .hbm, ⟨36, _⟩ => ⟨S32x2049x431x1, .f32⟩
  | .hbm, ⟨37, _⟩ => ⟨S32x2049x431x1, .f32⟩
  | .hbm, ⟨38, _⟩ => ⟨S32x2049x431x2, .f32⟩
  | _, _ => ⟨S32x1x441000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  slices_S32x1x441000_S32x1x1_0_0_0 : S32x1x441000.Slices ![0, 0, 0] S32x1x1
  slices_S32x1x441000_S32x1x2048_0_0_1 : S32x1x441000.Slices ![0, 0, 1] S32x1x2048
  concatenates_S32x1x2048_S32x1x441000_S32x1x443048_d2 : Shape.Concatenates [S32x1x2048, S32x1x441000] S32x1x443048 2
  slices_S32x1x443048_S32x1x1_0_0_443047 : S32x1x443048.Slices ![0, 0, 443047] S32x1x1
  slices_S32x1x443048_S32x1x2048_0_0_440999 : S32x1x443048.Slices ![0, 0, 440999] S32x1x2048
  concatenates_S32x1x443048_S32x1x2048_S32x1x445096_d2 : Shape.Concatenates [S32x1x443048, S32x1x2048] S32x1x445096 2
  bcast_S431_S431x1_0 : S431.BroadcastsInDim S431x1 (![0] : Fin 1 → Fin S431x1.rank)
  bcast_S_S431x1 : S_.BroadcastsInDim S431x1 (![] : Fin 0 → Fin S431x1.rank)
  bcast_S4096_S1x4096_1 : S4096.BroadcastsInDim S1x4096 (![1] : Fin 1 → Fin S1x4096.rank)
  bcast_S431x1_S431x4096_0_1 : S431x1.BroadcastsInDim S431x4096 (![0, 1] : Fin 2 → Fin S431x4096.rank)
  bcast_S1x4096_S431x4096_0_1 : S1x4096.BroadcastsInDim S431x4096 (![0, 1] : Fin 2 → Fin S431x4096.rank)
  shapeCasts_S32x1x445096_S32x445096 : S32x1x445096.ShapeCasts S32x445096
  bcast_S_S431x4096 : S_.BroadcastsInDim S431x4096 (![] : Fin 0 → Fin S431x4096.rank)
  bcast_S431x4096_S431x4096x1_0_1 : S431x4096.BroadcastsInDim S431x4096x1 (![0, 1] : Fin 2 → Fin S431x4096x1.rank)
  transposes_S2049x32x431_S32x2049x431_1_0_2 : S2049x32x431.Transposes [1, 0, 2] S32x2049x431
  bcast_S32x2049x431_S32x2049x431x1_0_1_2 : S32x2049x431.BroadcastsInDim S32x2049x431x1 (![0, 1, 2] : Fin 3 → Fin S32x2049x431x1.rank)
  concatenates_S32x2049x431x1_S32x2049x431x1_S32x2049x431x2_d3 : Shape.Concatenates [S32x2049x431x1, S32x2049x431x1] S32x2049x431x2 3
  gather_S32x445096_S431x4096x1_S32x431x4096_0_1_n_n_1_2_321_wf : GatherDims.WF S32x445096 S431x4096x1 S32x431x4096 [0] [1] [] [1] [] 2 ![32, 1]
  dot_S2049x4096_S32x431x4096_S2049x32x431_1_2_0_01_n_n_wf : DotDims.WF S2049x4096 S32x431x4096 S2049x32x431 [1] [2] [0] [0, 1] [] []

variable [Facts₀]

def gather_S32x445096_S431x4096x1_S32x431x4096_0_1_n_n_1_2_321 : GatherDims S32x445096 S431x4096x1 S32x431x4096 where
  offsetDims := [0]
  collapsedSliceDims := [1]
  operandBatchingDims := []
  startIndicesBatchingDims := []
  startIndexMap := [1]
  indexVectorDim := 2
  sliceSizes := ![32, 1]
  wf := gather_S32x445096_S431x4096x1_S32x431x4096_0_1_n_n_1_2_321_wf
def dot_S2049x4096_S32x431x4096_S2049x32x431_1_2_0_01_n_n : DotDims S2049x4096 S32x431x4096 S2049x32x431 where
  lhsContracting := [1]
  rhsContracting := [2]
  lhsNonContracting := [0]
  rhsNonContracting := [0, 1]
  lhsBatch := []
  rhsBatch := []
  wf := dot_S2049x4096_S32x431x4096_S2049x32x431_1_2_0_01_n_n_wf

class Facts : Prop extends Facts₀ where

variable [Facts]
-- ==== Proof.RefRun.lean ====
/-
  The reference program's run, read back as one straight line.

  The reference pads the signal by reflection (a called function: two slices, two reversals, two concatenations
  along the time axis), builds the table of start positions `1024 * frame + offset` (wrapped into range as a gather's
  indices are), gathers the frames `[32, 431, 4096]` out of the padded signal, contracts them against the two
  `[2049, 4096]` tables over the 4096 window positions, exchanges the two leading axes of each product and stacks the
  two results along a new last axis. Here its `@main` is stated as the list of those host operations, the called
  function's lines in place at its call, and every weakly fair execution is read back as the fold of the list over the
  launch memory.
-/
import proofs.«140371_j85925115724233_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The host operations of `@main`, in order: the zero the padding function is called with, the padding function's
    eight lines over its own buffers, then the frame positions, the gather, the two contractions and the stacking. -/
abbrev ops : List (HloOp τ sig (Elt F)) :=
  [ StableHlo.nullary main_c (constantI S_ 32 0#32),
    StableHlo.TRef.unary (.of main_arg0 : StableHlo.TRef sig ⟨S32x1x441000, .f32⟩) (.of main_call0_v0 : StableHlo.TRef sig ⟨S32x1x1, .f32⟩) (extractStridedSlice S32x1x1 ![0, 0, 0] · slices_S32x1x441000_S32x1x1_0_0_0),
    StableHlo.TRef.unary (.of main_arg0 : StableHlo.TRef sig ⟨S32x1x441000, .f32⟩) (.of main_call0_v1 : StableHlo.TRef sig ⟨S32x1x2048, .f32⟩) (extractStridedSlice S32x1x2048 ![0, 0, 1] · slices_S32x1x441000_S32x1x2048_0_0_1),
    StableHlo.TRef.unary (.of main_call0_v1 : StableHlo.TRef sig ⟨S32x1x2048, .f32⟩) (.of main_call0_v2 : StableHlo.TRef sig ⟨S32x1x2048, .f32⟩) (Host.reverse [2]),
    StableHlo.TRef.binary main_call0_call0.v0 (.of main_arg0 : StableHlo.TRef sig ⟨S32x1x441000, .f32⟩) (.of main_call0_v3 : StableHlo.TRef sig ⟨S32x1x443048, .f32⟩) (fun a b => concatenate S32x1x443048 2 [⟨S32x1x2048, a⟩, ⟨S32x1x441000, b⟩] concatenates_S32x1x2048_S32x1x441000_S32x1x443048_d2),
    StableHlo.TRef.unary (.of main_call0_v3 : StableHlo.TRef sig ⟨S32x1x443048, .f32⟩) (.of main_call0_v4 : StableHlo.TRef sig ⟨S32x1x1, .f32⟩) (extractStridedSlice S32x1x1 ![0, 0, 443047] · slices_S32x1x443048_S32x1x1_0_0_443047),
    StableHlo.TRef.unary (.of main_call0_v3 : StableHlo.TRef sig ⟨S32x1x443048, .f32⟩) (.of main_call0_v5 : StableHlo.TRef sig ⟨S32x1x2048, .f32⟩) (extractStridedSlice S32x1x2048 ![0, 0, 440999] · slices_S32x1x443048_S32x1x2048_0_0_440999),
    StableHlo.TRef.unary (.of main_call0_v5 : StableHlo.TRef sig ⟨S32x1x2048, .f32⟩) (.of main_call0_v6 : StableHlo.TRef sig ⟨S32x1x2048, .f32⟩) (Host.reverse [2]),
    StableHlo.TRef.binary (.of main_call0_v3 : StableHlo.TRef sig ⟨S32x1x443048, .f32⟩) main_call0_call1.v0 (.of main_v0 : StableHlo.TRef sig ⟨S32x1x445096, .f32⟩) (fun a b => concatenate S32x1x445096 2 [⟨S32x1x443048, a⟩, ⟨S32x1x2048, b⟩] concatenates_S32x1x443048_S32x1x2048_S32x1x445096_d2),
    StableHlo.nullary main_v1 (iotaInDim S431 32 0),
    StableHlo.unary main_v1 main_v2 (broadcastInDim S431x1 ![0] bcast_S431_S431x1_0 : (⟨S431, .i32⟩ : BufTy).Contents (Elt F) → (⟨S431x1, .i32⟩ : BufTy).Contents (Elt F)),
    StableHlo.nullary main_c_0 (constantI S_ 32 1024#32),
    StableHlo.unary main_c_0 main_v3 (broadcastInDim S431x1 ![] bcast_S_S431x1 : (⟨S_, .i32⟩ : BufTy).Contents (Elt F) → (⟨S431x1, .i32⟩ : BufTy).Contents (Elt F)),
    StableHlo.binary main_v3 main_v2 main_v4 (muli : (⟨S431x1, .i32⟩ : BufTy).Contents (Elt F) → (⟨S431x1, .i32⟩ : BufTy).Contents (Elt F) → (⟨S431x1, .i32⟩ : BufTy).Contents (Elt F)),
    StableHlo.nullary main_v5 (iotaInDim S4096 32 0),
    StableHlo.unary main_v5 main_v6 (broadcastInDim S1x4096 ![1] bcast_S4096_S1x4096_1 : (⟨S4096, .i32⟩ : BufTy).Contents (Elt F) → (⟨S1x4096, .i32⟩ : BufTy).Contents (Elt F)),
    StableHlo.unary main_v4 main_v7 (broadcastInDim S431x4096 ![0, 1] bcast_S431x1_S431x4096_0_1 : (⟨S431x1, .i32⟩ : BufTy).Contents (Elt F) → (⟨S431x4096, .i32⟩ : BufTy).Contents (Elt F)),
    StableHlo.unary main_v6 main_v8 (broadcastInDim S431x4096 ![0, 1] bcast_S1x4096_S431x4096_0_1 : (⟨S1x4096, .i32⟩ : BufTy).Contents (Elt F) → (⟨S431x4096, .i32⟩ : BufTy).Contents (Elt F)),
    StableHlo.binary main_v7 main_v8 main_v9 (addi : (⟨S431x4096, .i32⟩ : BufTy).Contents (Elt F) → (⟨S431x4096, .i32⟩ : BufTy).Contents (Elt F) → (⟨S431x4096, .i32⟩ : BufTy).Contents (Elt F)),
    StableHlo.reshape main_v0 main_v10 rfl shapeCasts_S32x1x445096_S32x445096,
    StableHlo.nullary main_c_1 (constantI S_ 32 0#32),
    StableHlo.unary main_c_1 main_v11 (broadcastInDim S431x4096 ![] bcast_S_S431x4096 : (⟨S_, .i32⟩ : BufTy).Contents (Elt F) → (⟨S431x4096, .i32⟩ : BufTy).Contents (Elt F)),
    StableHlo.binary main_v9 main_v11 main_v12 (cmpi .slt : (⟨S431x4096, .i32⟩ : BufTy).Contents (Elt F) → (⟨S431x4096, .i32⟩ : BufTy).Contents (Elt F) → (⟨S431x4096, .i1⟩ : BufTy).Contents (Elt F)),
    StableHlo.nullary main_c_2 (constantI S_ 32 445096#32),
    StableHlo.unary main_c_2 main_v13 (broadcastInDim S431x4096 ![] bcast_S_S431x4096 : (⟨S_, .i32⟩ : BufTy).Contents (Elt F) → (⟨S431x4096, .i32⟩ : BufTy).Contents (Elt F)),
    StableHlo.binary main_v9 main_v13 main_v14 (addi : (⟨S431x4096, .i32⟩ : BufTy).Contents (Elt F) → (⟨S431x4096, .i32⟩ : BufTy).Contents (Elt F) → (⟨S431x4096, .i32⟩ : BufTy).Contents (Elt F)),
    StableHlo.ternary main_v12 main_v14 main_v9 main_v15 (select : (⟨S431x4096, .i1⟩ : BufTy).Contents (Elt F) → (⟨S431x4096, .i32⟩ : BufTy).Contents (Elt F) → (⟨S431x4096, .i32⟩ : BufTy).Contents (Elt F) → (⟨S431x4096, .i32⟩ : BufTy).Contents (Elt F)),
    StableHlo.unary main_v15 main_v16 (broadcastInDim S431x4096x1 ![0, 1] bcast_S431x4096_S431x4096x1_0_1 : (⟨S431x4096, .i32⟩ : BufTy).Contents (Elt F) → (⟨S431x4096x1, .i32⟩ : BufTy).Contents (Elt F)),
    StableHlo.binary main_v10 main_v16 main_v17 ((fun x i => Host.gather gather_S32x445096_S431x4096x1_S32x431x4096_0_1_n_n_1_2_321 x i) : (⟨S32x445096, .f32⟩ : BufTy).Contents (Elt F) → (⟨S431x4096x1, .i32⟩ : BufTy).Contents (Elt F) → (⟨S32x431x4096, .f32⟩ : BufTy).Contents (Elt F)),
    StableHlo.binary main_arg1 main_v17 main_v18 ((fun l r => Host.dotGeneral dot_S2049x4096_S32x431x4096_S2049x32x431_1_2_0_01_n_n none l r) : (⟨S2049x4096, .f32⟩ : BufTy).Contents (Elt F) → (⟨S32x431x4096, .f32⟩ : BufTy).Contents (Elt F) → (⟨S2049x32x431, .f32⟩ : BufTy).Contents (Elt F)),
    StableHlo.unary main_v18 main_v19 ((transpose S32x2049x431 [1, 0, 2] · transposes_S2049x32x431_S32x2049x431_1_0_2) : (⟨S2049x32x431, .f32⟩ : BufTy).Contents (Elt F) → (⟨S32x2049x431, .f32⟩ : BufTy).Contents (Elt F)),
    StableHlo.binary main_arg2 main_v17 main_v20 ((fun l r => Host.dotGeneral dot_S2049x4096_S32x431x4096_S2049x32x431_1_2_0_01_n_n none l r) : (⟨S2049x4096, .f32⟩ : BufTy).Contents (Elt F) → (⟨S32x431x4096, .f32⟩ : BufTy).Contents (Elt F) → (⟨S2049x32x431, .f32⟩ : BufTy).Contents (Elt F)),
    StableHlo.unary main_v20 main_v21 ((transpose S32x2049x431 [1, 0, 2] · transposes_S2049x32x431_S32x2049x431_1_0_2) : (⟨S2049x32x431, .f32⟩ : BufTy).Contents (Elt F) → (⟨S32x2049x431, .f32⟩ : BufTy).Contents (Elt F)),
    StableHlo.unary main_v19 main_v22 (broadcastInDim S32x2049x431x1 ![0, 1, 2] bcast_S32x2049x431_S32x2049x431x1_0_1_2 : (⟨S32x2049x431, .f32⟩ : BufTy).Contents (Elt F) → (⟨S32x2049x431x1, .f32⟩ : BufTy).Contents (Elt F)),
    StableHlo.unary main_v21 main_v23 (broadcastInDim S32x2049x431x1 ![0, 1, 2] bcast_S32x2049x431_S32x2049x431x1_0_1_2 : (⟨S32x2049x431, .f32⟩ : BufTy).Contents (Elt F) → (⟨S32x2049x431x1, .f32⟩ : BufTy).Contents (Elt F)),
    StableHlo.binary main_v22 main_v23 main_v24 ((fun a b => concatenate S32x2049x431x2 3 [⟨S32x2049x431x1, a⟩, ⟨S32x2049x431x1, b⟩] concatenates_S32x2049x431x1_S32x2049x431x1_S32x2049x431x2_d3) : (⟨S32x2049x431x1, .f32⟩ : BufTy).Contents (Elt F) → (⟨S32x2049x431x1, .f32⟩ : BufTy).Contents (Elt F) → (⟨S32x2049x431x2, .f32⟩ : BufTy).Contents (Elt F)) ]

-- thirty-eight binds re-associated
set_option maxRecDepth 2048 in
/-- `@main` is that straight line: the called functions unfolded at their calls, sequencing re-associated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., unary_bufs_sub .., binary_bufs_sub ..⟩

/-- Every weakly fair execution of `@main` terminates, and every final state has each buffer at the fold of the
    operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.Frames.lean ====
/-
  The frames of the padded signal, as one function of the signal.

  A signal `x : [32, 1, 441000]` is padded by reflection with 2048 samples on each side of the time axis: the head is
  the reversal of `x[1 .. 2048]`, and the tail is the reversal of the last 2048 samples before the end of
  `head ++ x` (its positions 440999 .. 443046). Frame `f` of batch `b` is the window of 4096 samples of the padded
  signal starting at `1024 * f`: a gather of the padded signal, seen as `[32, 445096]`, through the table of start
  positions `1024 * f + n` (a negative position would be moved up by the length, as a gather's indices are read; none is
  negative here, and nothing below depends on it). Both programs compute exactly this, so it is stated once and never
  opened: the two sides only have to agree that they apply the same operations to the same signal.
-/
import proofs.«140371_j85925115724233_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The reversed first 2048 samples after the first, then the signal: `[32, 1, 443048]`. -/
def headPadded (x : (⟨S32x1x441000, .f32⟩ : BufTy).Contents (Elt F)) : (⟨S32x1x443048, .f32⟩ : BufTy).Contents (Elt F) :=
  concatenate S32x1x443048 2 [⟨S32x1x2048, Host.reverse [2] (extractStridedSlice S32x1x2048 ![0, 0, 1] x slices_S32x1x441000_S32x1x2048_0_0_1)⟩, ⟨S32x1x441000, x⟩] concatenates_S32x1x2048_S32x1x441000_S32x1x443048_d2

/-- The signal padded by reflection on both sides of the time axis: `[32, 1, 445096]`. -/
def padded (x : (⟨S32x1x441000, .f32⟩ : BufTy).Contents (Elt F)) : (⟨S32x1x445096, .f32⟩ : BufTy).Contents (Elt F) :=
  concatenate S32x1x445096 2 [⟨S32x1x443048, headPadded x⟩, ⟨S32x1x2048, Host.reverse [2] (extractStridedSlice S32x1x2048 ![0, 0, 440999] (headPadded x) slices_S32x1x443048_S32x1x2048_0_0_440999)⟩] concatenates_S32x1x443048_S32x1x2048_S32x1x445096_d2

/-- The sample position `1024 * f + n` of entry `n` of frame `f`: `[431, 4096]`. -/
def positions : (⟨S431x4096, .i32⟩ : BufTy).Contents (Elt F) :=
  addi (broadcastInDim S431x4096 ![0, 1] bcast_S431x1_S431x4096_0_1 (muli (broadcastInDim S431x1 ![] bcast_S_S431x1 (constantI S_ 32 1024#32)) (broadcastInDim S431x1 ![0] bcast_S431_S431x1_0 (iotaInDim S431 32 0))))
    (broadcastInDim S431x4096 ![0, 1] bcast_S1x4096_S431x4096_0_1 (broadcastInDim S1x4096 ![1] bcast_S4096_S1x4096_1 (iotaInDim S4096 32 0)))

/-- The start indices the gather reads: the positions, a negative one moved up by the padded length, as one-entry
    index vectors `[431, 4096, 1]`. -/
def starts : (⟨S431x4096x1, .i32⟩ : BufTy).Contents (Elt F) :=
  broadcastInDim S431x4096x1 ![0, 1] bcast_S431x4096_S431x4096x1_0_1
    (select (cmpi .slt (positions (F := F)) (broadcastInDim S431x4096 ![] bcast_S_S431x4096 (constantI S_ 32 0#32)))
      (addi (positions (F := F)) (broadcastInDim S431x4096 ![] bcast_S_S431x4096 (constantI S_ 32 445096#32))) (positions (F := F)))

/-- The frames `[32, 431, 4096]` of a padded signal: the signal, seen as `[32, 445096]`, gathered through the start
    indices. -/
def framesOf (p : (⟨S32x1x445096, .f32⟩ : BufTy).Contents (Elt F)) : (⟨S32x431x4096, .f32⟩ : BufTy).Contents (Elt F) :=
  Host.gather gather_S32x445096_S431x4096x1_S32x431x4096_0_1_n_n_1_2_321
    (shapeCast S32x445096 p shapeCasts_S32x1x445096_S32x445096 : (⟨S32x445096, .f32⟩ : BufTy).Contents (Elt F)) (starts (F := F))

/-- The frames of a signal: those of the signal padded by reflection. -/
def frames (x : (⟨S32x1x441000, .f32⟩ : BufTy).Contents (Elt F)) : (⟨S32x431x4096, .f32⟩ : BufTy).Contents (Elt F) :=
  framesOf (padded x)

/-- A table contracted against the frames over the 4096 window positions, the batch axis brought to the front: entry
    `(b, k, f)` pairs row `k` of the table with frame `f` of batch `b`. -/
def spectrum (table : (⟨S2049x4096, .f32⟩ : BufTy).Contents (Elt F)) (fr : (⟨S32x431x4096, .f32⟩ : BufTy).Contents (Elt F)) :
    (⟨S32x2049x431, .f32⟩ : BufTy).Contents (Elt F) :=
  transpose S32x2049x431 [1, 0, 2] (Host.dotGeneral dot_S2049x4096_S32x431x4096_S2049x32x431_1_2_0_01_n_n none table fr) transposes_S2049x32x431_S32x2049x431_1_0_2

/-- Two `[32, 2049, 431]` arrays stacked along a new last axis. -/
def stacked (re im : (⟨S32x2049x431, .f32⟩ : BufTy).Contents (Elt F)) : (⟨S32x2049x431x2, .f32⟩ : BufTy).Contents (Elt F) :=
  concatenate S32x2049x431x2 3 [⟨S32x2049x431x1, broadcastInDim S32x2049x431x1 ![0, 1, 2] bcast_S32x2049x431_S32x2049x431x1_0_1_2 re⟩, ⟨S32x2049x431x1, broadcastInDim S32x2049x431x1 ![0, 1, 2] bcast_S32x2049x431_S32x2049x431x1_0_1_2 im⟩] concatenates_S32x2049x431x1_S32x2049x431x1_S32x2049x431x2_d3

/-- The two tables' spectra of the frames of a padded signal, stacked. -/
def outOf (p : (⟨S32x1x445096, .f32⟩ : BufTy).Contents (Elt F)) (cosT sinT : (⟨S2049x4096, .f32⟩ : BufTy).Contents (Elt F)) :
    (⟨S32x2049x431x2, .f32⟩ : BufTy).Contents (Elt F) :=
  stacked (spectrum cosT (framesOf p)) (spectrum sinT (framesOf p))

/-- The two tables' spectra of the frames of a signal, stacked: what both programs compute. -/
def out (x : (⟨S32x1x441000, .f32⟩ : BufTy).Contents (Elt F)) (cosT sinT : (⟨S2049x4096, .f32⟩ : BufTy).Contents (Elt F)) :
    (⟨S32x2049x431x2, .f32⟩ : BufTy).Contents (Elt F) :=
  stacked (spectrum cosT (frames x)) (spectrum sinT (frames x))

end Cert.ReferenceIdeal.RefValue

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.RefRead.lean ====
/-
  What the reference computes, as one function of its three arguments.

  Each of the two results is the contraction of a `[2049, 4096]` table against the frames over the 4096 window
  positions, `[2049, 32, 431]`, with its two leading axes exchanged, `[32, 2049, 431]`; the two are stacked along a new
  last axis. The run of the program (the fold of its operations over the launch memory) ends with the result buffer at
  that function of the launch contents of the arguments, and the arguments unchanged. The fold is read a stretch at a
  time — the padding function, the gather of the frames, the contractions and the stacking — each from any contents.
-/
import proofs.«140371_j85925115724233_2_alg».proof.Proof.RefRun
import proofs.«140371_j85925115724233_2_alg».proof.Proof.Frames
import proofs.«140371_j85925115724233_2_alg».proof.Proof.LibTypedRefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations up to the end of the padding function, -/
abbrev opsHead : List (HloOp τ sig (Elt F)) :=
  [ StableHlo.nullary main_c (constantI S_ 32 0#32),
    StableHlo.TRef.unary (.of main_arg0 : StableHlo.TRef sig ⟨S32x1x441000, .f32⟩) (.of main_call0_v0 : StableHlo.TRef sig ⟨S32x1x1, .f32⟩) (extractStridedSlice S32x1x1 ![0, 0, 0] · slices_S32x1x441000_S32x1x1_0_0_0),
    StableHlo.TRef.unary (.of main_arg0 : StableHlo.TRef sig ⟨S32x1x441000, .f32⟩) (.of main_call0_v1 : StableHlo.TRef sig ⟨S32x1x2048, .f32⟩) (extractStridedSlice S32x1x2048 ![0, 0, 1] · slices_S32x1x441000_S32x1x2048_0_0_1),
    StableHlo.TRef.unary (.of main_call0_v1 : StableHlo.TRef sig ⟨S32x1x2048, .f32⟩) (.of main_call0_v2 : StableHlo.TRef sig ⟨S32x1x2048, .f32⟩) (Host.reverse [2]),
    StableHlo.TRef.binary main_call0_call0.v0 (.of main_arg0 : StableHlo.TRef sig ⟨S32x1x441000, .f32⟩) (.of main_call0_v3 : StableHlo.TRef sig ⟨S32x1x443048, .f32⟩) (fun a b => concatenate S32x1x443048 2 [⟨S32x1x2048, a⟩, ⟨S32x1x441000, b⟩] concatenates_S32x1x2048_S32x1x441000_S32x1x443048_d2),
    StableHlo.TRef.unary (.of main_call0_v3 : StableHlo.TRef sig ⟨S32x1x443048, .f32⟩) (.of main_call0_v4 : StableHlo.TRef sig ⟨S32x1x1, .f32⟩) (extractStridedSlice S32x1x1 ![0, 0, 443047] · slices_S32x1x443048_S32x1x1_0_0_443047),
    StableHlo.TRef.unary (.of main_call0_v3 : StableHlo.TRef sig ⟨S32x1x443048, .f32⟩) (.of main_call0_v5 : StableHlo.TRef sig ⟨S32x1x2048, .f32⟩) (extractStridedSlice S32x1x2048 ![0, 0, 440999] · slices_S32x1x443048_S32x1x2048_0_0_440999),
    StableHlo.TRef.unary (.of main_call0_v5 : StableHlo.TRef sig ⟨S32x1x2048, .f32⟩) (.of main_call0_v6 : StableHlo.TRef sig ⟨S32x1x2048, .f32⟩) (Host.reverse [2]),
    StableHlo.TRef.binary (.of main_call0_v3 : StableHlo.TRef sig ⟨S32x1x443048, .f32⟩) main_call0_call1.v0 (.of main_v0 : StableHlo.TRef sig ⟨S32x1x445096, .f32⟩) (fun a b => concatenate S32x1x445096 2 [⟨S32x1x443048, a⟩, ⟨S32x1x2048, b⟩] concatenates_S32x1x443048_S32x1x2048_S32x1x445096_d2) ]

/-- the operations that gather the frames, -/
abbrev opsFrames : List (HloOp τ sig (Elt F)) :=
  [ StableHlo.nullary main_v1 (iotaInDim S431 32 0),
    StableHlo.unary main_v1 main_v2 (broadcastInDim S431x1 ![0] bcast_S431_S431x1_0 : (⟨S431, .i32⟩ : BufTy).Contents (Elt F) → (⟨S431x1, .i32⟩ : BufTy).Contents (Elt F)),
    StableHlo.nullary main_c_0 (constantI S_ 32 1024#32),
    StableHlo.unary main_c_0 main_v3 (broadcastInDim S431x1 ![] bcast_S_S431x1 : (⟨S_, .i32⟩ : BufTy).Contents (Elt F) → (⟨S431x1, .i32⟩ : BufTy).Contents (Elt F)),
    StableHlo.binary main_v3 main_v2 main_v4 (muli : (⟨S431x1, .i32⟩ : BufTy).Contents (Elt F) → (⟨S431x1, .i32⟩ : BufTy).Contents (Elt F) → (⟨S431x1, .i32⟩ : BufTy).Contents (Elt F)),
    StableHlo.nullary main_v5 (iotaInDim S4096 32 0),
    StableHlo.unary main_v5 main_v6 (broadcastInDim S1x4096 ![1] bcast_S4096_S1x4096_1 : (⟨S4096, .i32⟩ : BufTy).Contents (Elt F) → (⟨S1x4096, .i32⟩ : BufTy).Contents (Elt F)),
    StableHlo.unary main_v4 main_v7 (broadcastInDim S431x4096 ![0, 1] bcast_S431x1_S431x4096_0_1 : (⟨S431x1, .i32⟩ : BufTy).Contents (Elt F) → (⟨S431x4096, .i32⟩ : BufTy).Contents (Elt F)),
    StableHlo.unary main_v6 main_v8 (broadcastInDim S431x4096 ![0, 1] bcast_S1x4096_S431x4096_0_1 : (⟨S1x4096, .i32⟩ : BufTy).Contents (Elt F) → (⟨S431x4096, .i32⟩ : BufTy).Contents (Elt F)),
    StableHlo.binary main_v7 main_v8 main_v9 (addi : (⟨S431x4096, .i32⟩ : BufTy).Contents (Elt F) → (⟨S431x4096, .i32⟩ : BufTy).Contents (Elt F) → (⟨S431x4096, .i32⟩ : BufTy).Contents (Elt F)),
    StableHlo.reshape main_v0 main_v10 rfl shapeCasts_S32x1x445096_S32x445096,
    StableHlo.nullary main_c_1 (constantI S_ 32 0#32),
    StableHlo.unary main_c_1 main_v11 (broadcastInDim S431x4096 ![] bcast_S_S431x4096 : (⟨S_, .i32⟩ : BufTy).Contents (Elt F) → (⟨S431x4096, .i32⟩ : BufTy).Contents (Elt F)),
    StableHlo.binary main_v9 main_v11 main_v12 (cmpi .slt : (⟨S431x4096, .i32⟩ : BufTy).Contents (Elt F) → (⟨S431x4096, .i32⟩ : BufTy).Contents (Elt F) → (⟨S431x4096, .i1⟩ : BufTy).Contents (Elt F)),
    StableHlo.nullary main_c_2 (constantI S_ 32 445096#32),
    StableHlo.unary main_c_2 main_v13 (broadcastInDim S431x4096 ![] bcast_S_S431x4096 : (⟨S_, .i32⟩ : BufTy).Contents (Elt F) → (⟨S431x4096, .i32⟩ : BufTy).Contents (Elt F)),
    StableHlo.binary main_v9 main_v13 main_v14 (addi : (⟨S431x4096, .i32⟩ : BufTy).Contents (Elt F) → (⟨S431x4096, .i32⟩ : BufTy).Contents (Elt F) → (⟨S431x4096, .i32⟩ : BufTy).Contents (Elt F)),
    StableHlo.ternary main_v12 main_v14 main_v9 main_v15 (select : (⟨S431x4096, .i1⟩ : BufTy).Contents (Elt F) → (⟨S431x4096, .i32⟩ : BufTy).Contents (Elt F) → (⟨S431x4096, .i32⟩ : BufTy).Contents (Elt F) → (⟨S431x4096, .i32⟩ : BufTy).Contents (Elt F)),
    StableHlo.unary main_v15 main_v16 (broadcastInDim S431x4096x1 ![0, 1] bcast_S431x4096_S431x4096x1_0_1 : (⟨S431x4096, .i32⟩ : BufTy).Contents (Elt F) → (⟨S431x4096x1, .i32⟩ : BufTy).Contents (Elt F)),
    StableHlo.binary main_v10 main_v16 main_v17 ((fun x i => Host.gather gather_S32x445096_S431x4096x1_S32x431x4096_0_1_n_n_1_2_321 x i) : (⟨S32x445096, .f32⟩ : BufTy).Contents (Elt F) → (⟨S431x4096x1, .i32⟩ : BufTy).Contents (Elt F) → (⟨S32x431x4096, .f32⟩ : BufTy).Contents (Elt F)) ]

/-- and the contractions and the stacking. -/
abbrev opsSpectra : List (HloOp τ sig (Elt F)) :=
  [ StableHlo.binary main_arg1 main_v17 main_v18 ((fun l r => Host.dotGeneral dot_S2049x4096_S32x431x4096_S2049x32x431_1_2_0_01_n_n none l r) : (⟨S2049x4096, .f32⟩ : BufTy).Contents (Elt F) → (⟨S32x431x4096, .f32⟩ : BufTy).Contents (Elt F) → (⟨S2049x32x431, .f32⟩ : BufTy).Contents (Elt F)),
    StableHlo.unary main_v18 main_v19 ((transpose S32x2049x431 [1, 0, 2] · transposes_S2049x32x431_S32x2049x431_1_0_2) : (⟨S2049x32x431, .f32⟩ : BufTy).Contents (Elt F) → (⟨S32x2049x431, .f32⟩ : BufTy).Contents (Elt F)),
    StableHlo.binary main_arg2 main_v17 main_v20 ((fun l r => Host.dotGeneral dot_S2049x4096_S32x431x4096_S2049x32x431_1_2_0_01_n_n none l r) : (⟨S2049x4096, .f32⟩ : BufTy).Contents (Elt F) → (⟨S32x431x4096, .f32⟩ : BufTy).Contents (Elt F) → (⟨S2049x32x431, .f32⟩ : BufTy).Contents (Elt F)),
    StableHlo.unary main_v20 main_v21 ((transpose S32x2049x431 [1, 0, 2] · transposes_S2049x32x431_S32x2049x431_1_0_2) : (⟨S2049x32x431, .f32⟩ : BufTy).Contents (Elt F) → (⟨S32x2049x431, .f32⟩ : BufTy).Contents (Elt F)),
    StableHlo.unary main_v19 main_v22 (broadcastInDim S32x2049x431x1 ![0, 1, 2] bcast_S32x2049x431_S32x2049x431x1_0_1_2 : (⟨S32x2049x431, .f32⟩ : BufTy).Contents (Elt F) → (⟨S32x2049x431x1, .f32⟩ : BufTy).Contents (Elt F)),
    StableHlo.unary main_v21 main_v23 (broadcastInDim S32x2049x431x1 ![0, 1, 2] bcast_S32x2049x431_S32x2049x431x1_0_1_2 : (⟨S32x2049x431, .f32⟩ : BufTy).Contents (Elt F) → (⟨S32x2049x431x1, .f32⟩ : BufTy).Contents (Elt F)),
    StableHlo.binary main_v22 main_v23 main_v24 ((fun a b => concatenate S32x2049x431x2 3 [⟨S32x2049x431x1, a⟩, ⟨S32x2049x431x1, b⟩] concatenates_S32x2049x431x1_S32x2049x431x1_S32x2049x431x2_d3) : (⟨S32x2049x431x1, .f32⟩ : BufTy).Contents (Elt F) → (⟨S32x2049x431x1, .f32⟩ : BufTy).Contents (Elt F) → (⟨S32x2049x431x2, .f32⟩ : BufTy).Contents (Elt F)) ]

theorem ops_split : (ops : List (HloOp τ sig (Elt F))) = opsHead ++ (opsFrames ++ opsSpectra) := rfl

variable (V : Valuation τ sig (Elt F))

/-! ## The padding -/

/-- After the padding function its result buffer holds the padded signal. -/
theorem head_v0 : after opsHead V (main_v0 : DevRef τ sig) = padded (V (main_arg0 : DevRef τ sig)) := by
  after_results
  rfl

theorem head_arg0 : after opsHead V (main_arg0 : DevRef τ sig) = V (main_arg0 : DevRef τ sig) := by
  after_results

theorem head_arg1 : after opsHead V (main_arg1 : DevRef τ sig) = V (main_arg1 : DevRef τ sig) := by
  after_results

theorem head_arg2 : after opsHead V (main_arg2 : DevRef τ sig) = V (main_arg2 : DevRef τ sig) := by
  after_results

/-! ## The gather -/

set_option maxRecDepth 8192 in
/-- After the gather its result buffer holds the frames of the padded signal. -/
theorem frames_v17 : after opsFrames V (main_v17 : DevRef τ sig) = framesOf (V (main_v0 : DevRef τ sig)) := by
  after_results
  unfold framesOf starts positions
  rfl

theorem frames_arg0 : after opsFrames V (main_arg0 : DevRef τ sig) = V (main_arg0 : DevRef τ sig) := by
  after_results

theorem frames_arg1 : after opsFrames V (main_arg1 : DevRef τ sig) = V (main_arg1 : DevRef τ sig) := by
  after_results

theorem frames_arg2 : after opsFrames V (main_arg2 : DevRef τ sig) = V (main_arg2 : DevRef τ sig) := by
  after_results

/-! ## The contractions and the stacking -/

/-- After the last operations the result buffer holds the two tables' spectra of the frames, stacked. -/
theorem spectra_v24 : after opsSpectra V (main_v24 : DevRef τ sig)
    = stacked (spectrum (V (main_arg1 : DevRef τ sig)) (V (main_v17 : DevRef τ sig))) (spectrum (V (main_arg2 : DevRef τ sig)) (V (main_v17 : DevRef τ sig))) := by
  after_results
  unfold stacked spectrum
  rfl

theorem spectra_arg0 : after opsSpectra V (main_arg0 : DevRef τ sig) = V (main_arg0 : DevRef τ sig) := by
  after_results

theorem spectra_arg1 : after opsSpectra V (main_arg1 : DevRef τ sig) = V (main_arg1 : DevRef τ sig) := by
  after_results

theorem spectra_arg2 : after opsSpectra V (main_arg2 : DevRef τ sig) = V (main_arg2 : DevRef τ sig) := by
  after_results

/-! ## The whole line -/

/-- The fold at the result buffer is `out` of the argument buffers. -/
theorem out_eq : after ops V (main_v24 : DevRef τ sig)
    = out (V (main_arg0 : DevRef τ sig)) (V (main_arg1 : DevRef τ sig)) (V (main_arg2 : DevRef τ sig)) := by
  rw [ops_split, after_append, after_append, spectra_v24, frames_v17, frames_arg1, frames_arg2, head_v0, head_arg1, head_arg2]
  rfl

theorem arg0_eq : after ops V (main_arg0 : DevRef τ sig) = V (main_arg0 : DevRef τ sig) := by
  rw [ops_split, after_append, after_append, spectra_arg0, frames_arg0, head_arg0]

theorem arg1_eq : after ops V (main_arg1 : DevRef τ sig) = V (main_arg1 : DevRef τ sig) := by
  rw [ops_split, after_append, after_append, spectra_arg1, frames_arg1, head_arg1]

theorem arg2_eq : after ops V (main_arg2 : DevRef τ sig) = V (main_arg2 : DevRef τ sig) := by
  rw [ops_split, after_append, after_append, spectra_arg2, frames_arg2, head_arg2]

/-- Every weakly fair execution of the reference terminates with its result at `out` of the arguments' launch
    contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (out_eq _), (h c main_arg0).trans (arg0_eq _),
      (h c main_arg1).trans (arg1_eq _), (h c main_arg2).trans (arg2_eq _)⟩)
    (run_fold m ρ)

end Cert.ReferenceIdeal.RefValue

end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.RefSpectrum.lean ====
/-
  The reference's contraction read at an index, at the ideal values.

  Entry `(b, k, f)` of a table's spectrum of the frames is the sum over the 4096 window positions `n` of
  `table (k, n) * frames (b, f, n)`: the exchange of the two leading axes reads the product `[2049, 32, 431]` at
  `(k, b, f)`, and there the product — the table's axis 1 contracted against the frames' axis 2, the table's axis 0
  then the frames' axes 0 and 1 kept — is that sum, the contraction's one coordinate named `n`.
-/
import proofs.«140371_j85925115724233_2_alg».proof.Proof.Frames
import proofs.«140371_j85925115724233_2_alg».proof.Proof.LibRowDots
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Idealize.ShloMosaic.RowDots

/-- The dimension numbers of the reference's contraction. -/
abbrev tableDot : DotDims S2049x4096 S32x431x4096 S2049x32x431 := dot_S2049x4096_S32x431x4096_S2049x32x431_1_2_0_01_n_n

/-- Off the contracted axis the table's index is the product's leading coordinate. -/
theorem tableDot_lhs0 (j : S2049x32x431.Idx) (q : tableDot.contr.Idx) : (tableDot.lhsIdx j q 0).val = (j 0).val := by
  unfold DotDims.lhsIdx
  rw [dif_neg (show ¬(0 : Fin 2) ∈ tableDot.lhsBatch from List.not_mem_nil),
    dif_pos (show (0 : Fin 2) ∈ tableDot.lhsNonContracting from List.mem_singleton.mpr rfl)]
  rfl

/-- Off the contracted axis the frames' batch is the product's middle coordinate, -/
theorem tableDot_rhs0 (j : S2049x32x431.Idx) (q : tableDot.contr.Idx) : (tableDot.rhsIdx j q 0).val = (j 1).val := by
  unfold DotDims.rhsIdx
  rw [dif_neg (show ¬(0 : Fin 3) ∈ tableDot.rhsBatch from List.not_mem_nil),
    dif_pos (show (0 : Fin 3) ∈ tableDot.rhsNonContracting from List.mem_cons_self)]
  rfl

/-- and the frame is its last. -/
theorem tableDot_rhs1 (j : S2049x32x431.Idx) (q : tableDot.contr.Idx) : (tableDot.rhsIdx j q 1).val = (j 2).val := by
  unfold DotDims.rhsIdx
  rw [dif_neg (show ¬(1 : Fin 3) ∈ tableDot.rhsBatch from List.not_mem_nil),
    dif_pos (show (1 : Fin 3) ∈ tableDot.rhsNonContracting from List.mem_cons_of_mem _ List.mem_cons_self)]
  rfl

/-- The product at `(k, b, f)`: the sum over the window positions. -/
theorem tableDot_apply (table : FVec Ideal S2049x4096 .f32) (fr : FVec Ideal S32x431x4096 .f32)
    (k : Fin 2049) (b : Fin 32) (f : Fin 431) :
    Host.dotGeneral tableDot none table fr (ix3 k b f) = ∑ n : Fin 4096, table (ix2 k n) * fr (ix3 b f n) := by
  show FloatOps.dotGeneral tableDot none .single table fr (ix3 k b f) = _
  rw [Ideal.dotGeneral_apply, ← Equiv.sum_comp (contrEquiv1 tableDot 4096 rfl rfl).symm]
  refine Finset.sum_congr rfl fun n _ => ?_
  have hk := contrEquiv1_symm_val tableDot 4096 rfl rfl n
  have el : tableDot.lhsIdx (ix3 k b f) ((contrEquiv1 tableDot 4096 rfl rfl).symm n) = ix2 k n :=
    idx2_ext _ _ _ (tableDot_lhs0 _ _) ((tableDot.lhsIdx_val_of_single (cl := 1) rfl _ _).trans hk)
  have er : tableDot.rhsIdx (ix3 k b f) ((contrEquiv1 tableDot 4096 rfl rfl).symm n) = ix3 b f n :=
    idx3_ext _ _ _ _ (tableDot_rhs0 _ _) (tableDot_rhs1 _ _) ((tableDot.rhsIdx_val_of_single (cr := 2) rfl _ _).trans hk)
  rw [el, er]

/-- A table's spectrum of the frames at `(b, k, f)`: the sum over `n` of `table (k, n) * frames (b, f, n)`. -/
theorem spectrum_apply (table : FVec Ideal S2049x4096 .f32) (fr : FVec Ideal S32x431x4096 .f32)
    (b : Fin 32) (k : Fin 2049) (f : Fin 431) :
    spectrum (F := Ideal) table fr (ix3 b k f) = ∑ n : Fin 4096, table (ix2 k n) * fr (ix3 b f n) := by
  unfold spectrum
  refine (transpose_apply _ _ _ (ix3 b k f) (ix3 k b f) (fun a => ?_)).trans (tableDot_apply table fr k b f)
  match a with
  | ⟨0, _⟩ => rfl
  | ⟨1, _⟩ => rfl
  | ⟨2, _⟩ => rfl

end Cert.ReferenceIdeal.RefValue

end
-- ==== Proof.KerHost.lean ====
/-
  The arrays the region finds, as functions of the arguments.

  Before the region the kernel's program pads the signal by reflection and gathers its frames exactly as the reference
  does (rounding the padded signal to a narrower float format on the way: at the ideal values a change of format is the
  identity), adds one frame of zeros after the 431 frames of every batch, `[32, 432, 4096]`, and adds 255 rows of zeros
  under each `[2049, 4096]` table, `[2304, 4096]` (again changing the format). The fold of those host operations over
  the launch memory is read back a stretch at a time — the padding, the gather, the rest — each stretch from any
  contents, so that no term carries more than one stretch.
-/
import proofs.«140371_j85925115724233_2_alg».proof.Proof.Gen.KernelIdeal.Frame
import proofs.«140371_j85925115724233_2_alg».proof.Proof.Frames
import proofs.«140371_j85925115724233_2_alg».proof.Proof.LibTypedRefs
import Idealize.ShloMosaic.Lib.StableHlo.Run
import Idealize.ShloMosaic.PureOps.Ideal

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo
open Cert.ReferenceIdeal.RefValue (padded headPadded framesOf frames starts positions)

/-- A table with 255 rows of zeros added under it. -/
def tablePadded (table : (⟨S2049x4096, .f32⟩ : BufTy).Contents (Elt Ideal)) : (⟨S2304x4096, .bf16⟩ : BufTy).Contents (Elt Ideal) :=
  truncf .bf16 (pad S2304x4096 ![0, 0] ![255, 0] ![0, 0] table (sitofp (F := Ideal) .f32 (constantI S_ 32 0#32)) pads_S2049x4096_S2304x4096_02550_000 h_S_) bitsLt_bf16_f32

/-- The frames with one frame of the value `z` added after the last of every batch (the program adds zeros; no entry read
    below lies in the added frame, so the value is left a parameter). -/
def framesPadded (z : (⟨S_, .bf16⟩ : BufTy).Contents (Elt Ideal)) (fr : (⟨S32x431x4096, .bf16⟩ : BufTy).Contents (Elt Ideal)) :
    (⟨S32x432x4096, .bf16⟩ : BufTy).Contents (Elt Ideal) :=
  pad S32x432x4096 ![0, 0, 0] ![0, 1, 0] ![0, 0, 0] fr z pads_S32x431x4096_S32x432x4096_000_010_000 h_S_

variable (U : Valuation τ sig (Elt Ideal))

/-! ## The padding -/

/-- After the padding function its result buffer holds the signal padded by reflection. -/
theorem pad_v0 : after (hostOps0 (F := Ideal) ++ hostOps0_1) U (Proc.devRef .tc main_v0) = padded (F := Ideal) (U (Proc.devRef .tc main_arg0)) := by
  simp only [hostOps0, hostOps0_1, List.cons_append, List.nil_append]
  after_results
  rfl

theorem pad_arg1 : after (hostOps0 (F := Ideal) ++ hostOps0_1) U (Proc.devRef .tc main_arg1) = U (Proc.devRef .tc main_arg1) := by
  simp only [hostOps0, hostOps0_1, List.cons_append, List.nil_append]
  after_results

theorem pad_arg2 : after (hostOps0 (F := Ideal) ++ hostOps0_1) U (Proc.devRef .tc main_arg2) = U (Proc.devRef .tc main_arg2) := by
  simp only [hostOps0, hostOps0_1, List.cons_append, List.nil_append]
  after_results

/-! ## The gather -/

set_option maxHeartbeats 1000000 in
/-- After the gather its result buffer holds the frames of the padded signal (the change of format is the identity). -/
theorem gather_v18 : after (hostOps0_2 (F := Ideal)) U (Proc.devRef .tc main_v18) = framesOf (F := Ideal) (U (Proc.devRef .tc main_v0)) := by
  simp only [hostOps0_2]
  after_results_simp
  unfold framesOf starts positions
  rfl

theorem gather_arg1 : after (hostOps0_2 (F := Ideal)) U (Proc.devRef .tc main_arg1) = U (Proc.devRef .tc main_arg1) := by
  simp only [hostOps0_2]
  after_results

theorem gather_arg2 : after (hostOps0_2 (F := Ideal)) U (Proc.devRef .tc main_arg2) = U (Proc.devRef .tc main_arg2) := by
  simp only [hostOps0_2]
  after_results

/-! ## The zero paddings -/

/-- The operations after the gather: the three zero paddings and the tables' changes of format. -/
abbrev restOps : List (HloOp τ sig (Elt Ideal)) := hostOps0_3 ++ (hostOps0_4 ++ (hostOps0_5 ++ (hostOps0_6 ++ (hostOps0_7 ++ hostOps0_8))))

theorem rest_v19 : after restOps U (Proc.devRef .tc main_v19)
    = framesPadded (sitofp (F := Ideal) .bf16 (U (Proc.devRef .tc main_c_3))) (U (Proc.devRef .tc main_v18)) := by
  simp only [restOps, hostOps0_3, hostOps0_4, hostOps0_5, hostOps0_6, hostOps0_7, hostOps0_8, List.cons_append, List.nil_append]
  after_results
  rfl

theorem rest_v21 : after restOps U (Proc.devRef .tc main_v21) = tablePadded (U (Proc.devRef .tc main_arg1)) := by
  simp only [restOps, hostOps0_3, hostOps0_4, hostOps0_5, hostOps0_6, hostOps0_7, hostOps0_8, List.cons_append, List.nil_append]
  after_results
  rfl

theorem rest_v23 : after restOps U (Proc.devRef .tc main_v23) = tablePadded (U (Proc.devRef .tc main_arg2)) := by
  simp only [restOps, hostOps0_3, hostOps0_4, hostOps0_5, hostOps0_6, hostOps0_7, hostOps0_8, List.cons_append, List.nil_append]
  after_results
  rfl

/-! ## The three arrays at the region's entry -/

variable (m : (ℓ : Loc nD τ sig) → Buf (Elt Ideal) ℓ)

/-- The contents at the region's entry are the three stretches' folds, one after the other. -/
theorem V0_stretches (c : Dev nD) :
    V0 m c = after restOps (after (hostOps0_2 (F := Ideal)) (after (hostOps0 (F := Ideal) ++ hostOps0_1) (fun b => m (c, b)))) := by
  show after (List.flatten [hostOps0 (F := Ideal), hostOps0_1, hostOps0_2, hostOps0_3, hostOps0_4, hostOps0_5, hostOps0_6, hostOps0_7, hostOps0_8]) _ = _
  rw [← after_append, ← after_append]
  exact congrArg (fun l => after l _) (by
    simp only [List.flatten_cons, List.flatten_nil, List.append_nil, List.append_assoc])

/-- The frames as the region finds them: the frames of the signal, one more frame after every batch's last. -/
theorem V_main_v19 (c : Dev nD) :
    ∃ z, V m c main_v19 = framesPadded z (frames (F := Ideal) (m ((c : Thread nD τ).loc main_arg0))) := by
  refine ⟨?_, ?_⟩
  swap
  · show V0 m c (Proc.devRef .tc main_v19) = _
    rw [V0_stretches, rest_v19, gather_v18, pad_v0]
    rfl

/-- The first table as the region finds it. -/
theorem V_main_v21 (c : Dev nD) : V m c main_v21 = tablePadded (m ((c : Thread nD τ).loc main_arg1)) := by
  show V0 m c (Proc.devRef .tc main_v21) = _
  rw [V0_stretches, rest_v21, gather_arg1, pad_arg1]

/-- The second table as the region finds it. -/
theorem V_main_v23 (c : Dev nD) : V m c main_v23 = tablePadded (m ((c : Thread nD τ).loc main_arg2)) := by
  show V0 m c (Proc.devRef .tc main_v23) = _
  rw [V0_stretches, rest_v23, gather_arg2, pad_arg2]

end Cert.KernelIdeal.Entry

end
-- ==== Proof.BlockProducts.lean ====
/-
  The two outputs of the frames-against-tables product, each as ONE function of the arrays the region finds.

  At grid point (n, b) the body multiplies a 256-row tile of a [2304, 4096] table against the [432, 4096] frames of
  batch b, every row of the tile against every row of the frames (both operands' axis 1 contracted, into the zero
  accumulator), and stores the [256, 432] product as block (b, n, 0) of a [32, 2304, 432] output. So entry (b, k, f)
  of the output is the sum over n of table (k, n) * frames (b, f, n): `rowProducts`. Proved here at the ideal values:

  * the stored block at (0, r, f) is the sum over n of tile (r, n) * block (0, f, n) (`blockProduct3_apply`), hence the
    row product at any whole-array index whose batch, row and column the block's index names (`blockProduct3_eq`);
  * the index maps, decided over the 288 grid points (`index_facts`), and every (batch, row tile) pair is some point's
    (`index_onto`);
  * what point t writes back is block t of `rowProducts` (`flushed_eq3`, `flushed_eq4`); the blocks cover the array
    (`cover3`, `cover4`); so the array after the run is `rowProducts` (`final3`, `final4`).
-/
import proofs.«140371_j85925115724233_2_alg».proof.Proof.Gen.KernelIdeal.Frame
import proofs.«140371_j85925115724233_2_alg».proof.Proof.LibRowDots
import Idealize.ShloMosaic.Lib.Pipeline.Value
import Idealize.ShloMosaic.Lib.ValueIdx

set_option maxRecDepth 16384

noncomputable section

open scoped BigOperators

namespace Cert.KernelIdeal.BlockProducts

open Cert.KernelIdeal Cert.KernelIdeal.Gen Idealize.ShloMosaic Idealize.ShloMosaic.TcCoe Idealize.SL.Sem
open Idealize.ShloMosaic.Pipeline (Dat)
open Idealize.ShloMosaic.ValueIdx

/-- entry (b, k, f): the sum over n of table (k, n) * frames (b, f, n) -/
def rowProducts (table : S2304x4096.Idx → EReal) (frames : S32x432x4096.Idx → EReal) : S32x2304x432.Idx → EReal :=
  fun i => ∑ n : Fin 4096, table (ix2 (⟨(i 1).val, (i 1).isLt⟩ : Fin 2304) n)
    * frames (ix3 (⟨(i 0).val, (i 0).isLt⟩ : Fin 32) (⟨(i 2).val, (i 2).isLt⟩ : Fin 432) n)

/-- The frames block with its leading unit axis dropped, read at (f, n), is the block at (0, f, n). -/
theorem framesRows_apply (x0 : Vec Ideal S1x432x4096 .bf16) (f : Fin 432) (n : Fin 4096) :
    k0_pay1 x0 (ix2 f n) = x0 (ix3 (0 : Fin 1) f n) := by
  unfold k0_pay1
  refine (shapeCast_apply x0 _ (ix2 f n) (ix3 (0 : Fin 1) f n) ?_).trans rfl
  rw [Shape.rowMajor_val_three, Shape.rowMajor_val_two]
  show (0 * 432 + f.val) * 4096 + n.val = f.val * 4096 + n.val
  omega

/-- The stored block of window 3 at (0, r, f): row r of the table tile against row f of the frames block. -/
theorem blockProduct3_apply (x0 : Vec Ideal S1x432x4096 .bf16) (x1 : Vec Ideal S256x4096 .bf16) (r : Fin 256) (f : Fin 432) :
    k0_pay2 x0 x1 (ix3 (0 : Fin 1) r f) = ∑ n : Fin 4096, x1 (ix2 r n) * x0 (ix3 (0 : Fin 1) f n) := by
  unfold k0_pay2
  refine (shapeCast_apply _ _ (ix3 (0 : Fin 1) r f) (ix2 r f) ?_).trans ?_
  · rw [Shape.rowMajor_val_three, Shape.rowMajor_val_two]
    show r.val * 432 + f.val = (0 * 256 + r.val) * 432 + f.val
    omega
  rw [shapeCast_self]
  refine (RowDots.matmul_zero_rows_apply dot_S256x4096_S432x4096_S256x432_1_1_0_0_n_n ⟨_, rfl⟩ none x1 (k0_pay1 x0) r f).trans ?_
  exact Finset.sum_congr rfl fun n _ => congrArg (x1 (ix2 r n) * ·) (framesRows_apply x0 f n)

/-- The block product at a block index j of window 3's block, against one whole-array index i: when the frames block is
    batch (i 0) of the frames, row (j 1) of the table tile is row (i 1) of the table, and the last coordinates agree,
    the stored entry is the row product at i. -/
theorem blockProduct3_eq (x0 : Vec Ideal S1x432x4096 .bf16) (x1 : Vec Ideal S256x4096 .bf16)
    (table : S2304x4096.Idx → EReal) (frames : S32x432x4096.Idx → EReal)
    (j : S1x256x432.Idx) (i : S32x2304x432.Idx)
    (h2 : (i 2).val = (j 2).val)
    (hx0 : ∀ (f : Fin 432) (n : Fin 4096), x0 (ix3 (0 : Fin 1) f n) = frames (ix3 (⟨(i 0).val, (i 0).isLt⟩ : Fin 32) f n))
    (hx1 : ∀ (n : Fin 4096), x1 (ix2 (⟨(j 1).val, (j 1).isLt⟩ : Fin 256) n) = table (ix2 (⟨(i 1).val, (i 1).isLt⟩ : Fin 2304) n)) :
    k0_pay2 x0 x1 j = rowProducts table frames i := by
  have hj0 : (j 0).val < 1 := (j 0).isLt
  have hj : j = ix3 (0 : Fin 1) (⟨(j 1).val, (j 1).isLt⟩ : Fin 256) (⟨(j 2).val, (j 2).isLt⟩ : Fin 432) :=
    RowDots.idx3_ext j _ _ _ (by show (j 0).val = 0; omega) rfl rfl
  refine (congrArg (k0_pay2 x0 x1) hj).trans ?_
  refine (blockProduct3_apply x0 x1 _ _).trans ?_
  unfold rowProducts
  refine Finset.sum_congr rfl fun n _ => ?_
  rw [hx1 n, hx0]
  have e2 : (⟨(j 2).val, (j 2).isLt⟩ : Fin 432) = ⟨(i 2).val, (i 2).isLt⟩ := Fin.ext h2.symm
  rw [e2]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the grid: the frames window moves with the outputs' batch index, the table
    windows with the outputs' row-tile index, every other block index is 0, the two outputs move together, and point t
    has batch index t mod 32 and row-tile index t / 32. -/
theorem index_facts : ∀ t : Fin cfg0.N,
    win0_0.index t (0 : Fin 3) = win0_3.index t (0 : Fin 3)
    ∧ win0_0.index t (1 : Fin 3) = 0 ∧ win0_0.index t (2 : Fin 3) = 0
    ∧ win0_1.index t (0 : Fin 2) = win0_3.index t (1 : Fin 3) ∧ win0_1.index t (1 : Fin 2) = 0
    ∧ win0_2.index t (0 : Fin 2) = win0_3.index t (1 : Fin 3) ∧ win0_2.index t (1 : Fin 2) = 0
    ∧ win0_3.index t (2 : Fin 3) = 0
    ∧ win0_3.index t (0 : Fin 3) = t.val % 32 ∧ win0_3.index t (1 : Fin 3) = t.val / 32
    ∧ win0_4.index t (0 : Fin 3) = win0_3.index t (0 : Fin 3)
    ∧ win0_4.index t (1 : Fin 3) = win0_3.index t (1 : Fin 3)
    ∧ win0_4.index t (2 : Fin 3) = 0 :=
  (by decide +kernel : ∀ t : Fin grid0.N, _)

/-- Every (batch, row tile) pair is SOME point's block index: point 32 * tile + batch has it. -/
theorem index_onto (q0 : Fin 32) (q1 : Fin 9) :
    ∃ t : Fin cfg0.N, win0_3.index t (0 : Fin 3) = q0.val ∧ win0_3.index t (1 : Fin 3) = q1.val := by
  have hN : cfg0.N = 288 := N_0
  have hlt : q1.val * 32 + q0.val < cfg0.N := by rw [hN]; omega
  obtain ⟨t, ht⟩ : ∃ t : Fin cfg0.N, t.val = q1.val * 32 + q0.val := ⟨⟨_, hlt⟩, rfl⟩
  obtain ⟨e00, e01, e02, e10, e11, e20, e21, e32, p30, p31, e40, e41, e42⟩ := index_facts t
  exact ⟨t, by omega, by omega⟩

variable (m : (ℓ : Loc nD τ sig) → Buf (Elt Ideal) ℓ)

/-- WHAT POINT t WRITES BACK to the first output is block t of the row products of table 1 and the frames. -/
theorem flushed_eq3 (c : Dev nD) (t : Fin cfg0.N) :
    (dats (F := Ideal) m 0 c).flushed 3 t
      = ((cfg0.win 3).blk t).view.read (Elt Ideal) (rowProducts (V m c main_v21) (V m c main_v19)) := by
  show (cfg0.win 3).cut (grid0.coords t) ((dats m 0 c).after 3 t) = _
  rw [after0_3]
  unfold out0_3
  rw [View.canon_unit_zero zeros3]
  simp only [View.ld_unit_zero (S := S1x432x4096) zeros3, View.ld_unit_zero (S := S256x4096) zeros2]
  obtain ⟨e00, e01, e02, e10, e11, e20, e21, e32, p30, p31, e40, e41, e42⟩ := index_facts t
  generalize hG : rowProducts (V m c main_v21) (V m c main_v19) = G
  funext j
  show k0_pay2 (iblk m c 0 t) (iblk m c 1 t) j = G (((cfg0.win 3).blk t).view.emb j)
  rw [← hG]
  have hj0 : (j 0).val < 1 := (j 0).isLt
  refine blockProduct3_eq _ _ _ _ j _ ?_ ?_ ?_
  · show win0_3.index t (2 : Fin 3) * 432 + 1 * (j 2).val = (j 2).val
    omega
  · intro f n
    show V m c main_v19 (((cfg0.win 0).blk t).view.emb (ix3 (0 : Fin 1) f n))
      = V m c main_v19 (ix3 (⟨((((cfg0.win 3).blk t).view.emb j) 0).val, _⟩ : Fin 32) f n)
    refine congrArg (V m c main_v19) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 432 + 1 * f.val = f.val; omega
    | ⟨2, _⟩ => show win0_0.index t (2 : Fin 3) * 4096 + 1 * n.val = n.val; omega
  · intro n
    show V m c main_v21 (((cfg0.win 1).blk t).view.emb (ix2 (⟨(j 1).val, (j 1).isLt⟩ : Fin 256) n))
      = V m c main_v21 (ix2 (⟨((((cfg0.win 3).blk t).view.emb j) 1).val, _⟩ : Fin 2304) n)
    refine congrArg (V m c main_v21) (funext fun a => Fin.ext ?_)
    match a with
    | ⟨0, _⟩ => show win0_1.index t (0 : Fin 2) * 256 + 1 * (j 1).val = win0_3.index t (1 : Fin 3) * 256 + 1 * (j 1).val; omega
    | ⟨1, _⟩ => show win0_1.index t (1 : Fin 2) * 4096 + 1 * n.val = n.val; omega

/-- An index of the first output is in point t's block iff each coordinate is in the block's range on its axis. -/
theorem mem_blk3 (t : Fin cfg0.N) (i : S32x2304x432.Idx) :
    i ∈ ((cfg0.win 3).blk t).view.set ↔ ∀ a : Fin 3, win0_3.index t a * S1x256x432.size a ≤ (i a).val
      ∧ (i a).val < win0_3.index t a * S1x256x432.size a + S1x256x432.size a := by
  show i ∈ ((View.whole main_v24_0).slice (win0_3.rect t)).set ↔ _
  rw [View.set_slice_whole, Rect.mem_set_unit]
  exact Iff.rfl

/-- Every index (b, k, f) of the first output is in the block of the point with block index (b, k / 256, 0). -/
theorem cover3 (i : S32x2304x432.Idx) :
    ∃ t : Fin cfg0.N, (cfg0.win 3).flush t = true ∧ i ∈ ((cfg0.win 3).blk t).view.set := by
  have hi0 : (i 0).val < 32 := (i 0).isLt
  have hi1 : (i 1).val < 2304 := (i 1).isLt
  have hi2 : (i 2).val < 432 := (i 2).isLt
  obtain ⟨t, q0, q1⟩ := index_onto ⟨(i 0).val, hi0⟩ ⟨(i 1).val / 256, by omega⟩
  have q0' : win0_3.index t (0 : Fin 3) = (i 0).val := q0
  have q1' : win0_3.index t (1 : Fin 3) = (i 1).val / 256 := q1
  obtain ⟨e00, e01, e02, e10, e11, e20, e21, e32, p30, p31, e40, e41, e42⟩ := index_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 432 ≤ (i 2).val ∧ (i 2).val < win0_3.index t (2 : Fin 3) * 432 + 432; omega

/-- THE FIRST OUTPUT after the run: the row products of table 1 and the frames, as the region finds them. -/
theorem final3 (c : Dev nD) :
    (dats (F := Ideal) m 0 c).arrAt 3 cfg0.N = rowProducts (V m c main_v21) (V m c main_v19) :=
  (dats m 0 c).arrAt_eq_of_cover 3 (rowProducts (V m c main_v21) (V m c main_v19)) (fun t _ => flushed_eq3 m c t) cover3

/-! ## The second output: the same block product, of table 2 -/

/-- The two stored blocks are the same function of the frames block and of their table tile. -/
theorem blockProduct4_eq_blockProduct3 (x0 : Vec Ideal S1x432x4096 .bf16) (x2 : Vec Ideal S256x4096 .bf16) :
    k0_pay3 x0 x2 = k0_pay2 x0 x2 := rfl

/-- WHAT POINT t WRITES BACK to the second output is block t of the row products of table 2 and the frames. -/
theorem flushed_eq4 (c : Dev nD) (t : Fin cfg0.N) :
    (dats (F := Ideal) m 0 c).flushed 4 t
      = ((cfg0.win 4).blk t).view.read (Elt Ideal) (rowProducts (V m c main_v23) (V m c main_v19)) := by
  show (cfg0.win 4).cut (grid0.coords t) ((dats m 0 c).after 4 t) = _
  rw [after0_4]
  unfold out0_4
  rw [View.canon_unit_zero zeros3]
  simp only [View.ld_unit_zero (S := S1x432x4096) zeros3, View.ld_unit_zero (S := S256x4096) zeros2]
  obtain ⟨e00, e01, e02, e10, e11, e20, e21, e32, p30, p31, e40, e41, e42⟩ := index_facts t
  generalize hG : rowProducts (V m c main_v23) (V m c main_v19) = G
  funext j
  show k0_pay3 (iblk m c 0 t) (iblk m c 2 t) j = G (((cfg0.win 4).blk t).view.emb j)
  rw [← hG]
  have hj0 : (j 0).val < 1 := (j 0).isLt
  refine (congrFun (blockProduct4_eq_blockProduct3 _ _) j).trans ?_
  refine blockProduct3_eq _ _ _ _ j _ ?_ ?_ ?_
  · show win0_4.index t (2 : Fin 3) * 432 + 1 * (j 2).val = (j 2).val
    omega
  · intro f n
    show V m c main_v19 (((cfg0.win 0).blk t).view.emb (ix3 (0 : Fin 1) f n))
      = V m c main_v19 (ix3 (⟨((((cfg0.win 4).blk t).view.emb j) 0).val, _⟩ : Fin 32) f n)
    refine congrArg (V m c main_v19) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 432 + 1 * f.val = f.val; omega
    | ⟨2, _⟩ => show win0_0.index t (2 : Fin 3) * 4096 + 1 * n.val = n.val; omega
  · intro n
    show V m c main_v23 (((cfg0.win 2).blk t).view.emb (ix2 (⟨(j 1).val, (j 1).isLt⟩ : Fin 256) n))
      = V m c main_v23 (ix2 (⟨((((cfg0.win 4).blk t).view.emb j) 1).val, _⟩ : Fin 2304) n)
    refine congrArg (V m c main_v23) (funext fun a => Fin.ext ?_)
    match a with
    | ⟨0, _⟩ => show win0_2.index t (0 : Fin 2) * 256 + 1 * (j 1).val = win0_4.index t (1 : Fin 3) * 256 + 1 * (j 1).val; omega
    | ⟨1, _⟩ => show win0_2.index t (1 : Fin 2) * 4096 + 1 * n.val = n.val; omega

/-- An index of the second output is in point t's block iff each coordinate is in the block's range on its axis. -/
theorem mem_blk4 (t : Fin cfg0.N) (i : S32x2304x432.Idx) :
    i ∈ ((cfg0.win 4).blk t).view.set ↔ ∀ a : Fin 3, win0_4.index t a * S1x256x432.size a ≤ (i a).val
      ∧ (i a).val < win0_4.index t a * S1x256x432.size a + S1x256x432.size a := by
  show i ∈ ((View.whole main_v24_1).slice (win0_4.rect t)).set ↔ _
  rw [View.set_slice_whole, Rect.mem_set_unit]
  exact Iff.rfl

/-- Every index (b, k, f) of the second output is in the block of the point with block index (b, k / 256, 0). -/
theorem cover4 (i : S32x2304x432.Idx) :
    ∃ t : Fin cfg0.N, (cfg0.win 4).flush t = true ∧ i ∈ ((cfg0.win 4).blk t).view.set := by
  have hi0 : (i 0).val < 32 := (i 0).isLt
  have hi1 : (i 1).val < 2304 := (i 1).isLt
  have hi2 : (i 2).val < 432 := (i 2).isLt
  obtain ⟨t, q0, q1⟩ := index_onto ⟨(i 0).val, hi0⟩ ⟨(i 1).val / 256, by omega⟩
  have q0' : win0_3.index t (0 : Fin 3) = (i 0).val := q0
  have q1' : win0_3.index t (1 : Fin 3) = (i 1).val / 256 := q1
  obtain ⟨e00, e01, e02, e10, e11, e20, e21, e32, p30, p31, e40, e41, e42⟩ := index_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 432 ≤ (i 2).val ∧ (i 2).val < win0_4.index t (2 : Fin 3) * 432 + 432; omega

/-- THE SECOND OUTPUT after the run: the row products of table 2 and the frames, as the region finds them. -/
theorem final4 (c : Dev nD) :
    (dats (F := Ideal) m 0 c).arrAt 4 cfg0.N = rowProducts (V m c main_v23) (V m c main_v19) :=
  (dats m 0 c).arrAt_eq_of_cover 4 (rowProducts (V m c main_v23) (V m c main_v19)) (fun t _ => flushed_eq4 m c t) cover4

end Cert.KernelIdeal.BlockProducts

end
-- ==== Proof.KerRun.lean ====
/-
  The kernel program's run, read at its result.

  After the region the program keeps the leading `[32, 2049, 431]` corner of each of the two `[32, 2304, 432]` output
  arrays (dropping the rows that belong to the tables' zero padding and the frame added after every batch's last) and
  stacks the two corners along a new last axis. The generated frame run leaves every buffer the region does not own at
  the fold of those host operations over the region's exit contents, in which the two output arrays are what the
  pipeline's write-backs left; so the result buffer ends at the stacking of the two corners of those arrays.
-/
import proofs.«140371_j85925115724233_2_alg».proof.Proof.Gen.KernelIdeal.Frame
import proofs.«140371_j85925115724233_2_alg».proof.Proof.Frames
import Idealize.ShloMosaic.PureOps.Ideal

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.ReferenceIdeal.RefValue (stacked)

variable (m : (ℓ : Loc nD τ sig) → Buf (Elt Ideal) ℓ) (ρ : Dev nD → PrngReg)

/-- The leading `[32, 2049, 431]` corner of a `[32, 2304, 432]` array. -/
def corner (a : (⟨S32x2304x432, .f32⟩ : BufTy).Contents (Elt Ideal)) : (⟨S32x2049x431, .f32⟩ : BufTy).Contents (Elt Ideal) :=
  extractStridedSlice S32x2049x431 ![0, 0, 0] a slices_S32x2304x432_S32x2049x431_0_0_0

/-- The host operations after the region leave the result buffer at the stacking of the two output arrays' corners. -/
theorem tail_v29 (c : Dev nD) :
    Pipeline.afterTail₀ cfgs (dats (F := Ideal) m) 0 (V0 m) [hostOps1] c main_v29
      = stacked (F := Ideal) (corner ((dats (F := Ideal) m 0 c).arrAt 3 cfg0.N)) (corner ((dats (F := Ideal) m 0 c).arrAt 4 cfg0.N)) := by
  unfold Pipeline.afterTail₀
  show StableHlo.after hostOps1 _ (Proc.devRef .tc main_v29) = _
  after_results
  have e3 : Pipeline.withArrays (cfgs 0).spec c (V0 m c) (fun w => (dats (F := Ideal) m 0 c).arrAt w (cfgs 0).N)
      (Proc.devRef .tc main_v24_0) = (dats (F := Ideal) m 0 c).arrAt 3 cfg0.N :=
    Pipeline.withArrays_arr spec0 launch0.win.arr_inj c _ _ 3
  have e4 : Pipeline.withArrays (cfgs 0).spec c (V0 m c) (fun w => (dats (F := Ideal) m 0 c).arrAt w (cfgs 0).N)
      (Proc.devRef .tc main_v24_1) = (dats (F := Ideal) m 0 c).arrAt 4 cfg0.N :=
    Pipeline.withArrays_arr spec0 launch0.win.arr_inj c _ _ 4
  rw [e3, e4]
  unfold Cert.ReferenceIdeal.RefValue.stacked corner
  rfl

/-- Every weakly fair execution of the kernel's program terminates with its result at the stacking of the corners of
    the two output arrays as the write-backs left them, the arguments unchanged. -/
theorem run : θ_run defs (onTc (τ := τ) (main (F := Ideal))) ⟨m, fun _ => 0, ρ⟩ fun r => ∀ c : Dev nD,
      r.2.mem ((c.tc : Thread nD τ).loc main_v29)
        = stacked (F := Ideal) (corner ((dats (F := Ideal) m 0 c).arrAt 3 cfg0.N)) (corner ((dats (F := Ideal) m 0 c).arrAt 4 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (tail_v29 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.KerSpectrum.lean ====
/-
  The corner of a row product read at an index, at the ideal values.

  Entry `(b, k, f)` of the leading `[32, 2049, 431]` corner of the row products of a table padded with rows under it
  and frames padded with a frame after every batch's last is the sum over the 4096 window positions `n` of
  `table (k, n) * frames (b, f, n)`: the corner reads the product at the same coordinates, and at a row below 2049 and
  a frame below 431 both paddings read their operand (the change of format is the identity at the ideal values).
-/
import proofs.«140371_j85925115724233_2_alg».proof.Proof.BlockProducts
import proofs.«140371_j85925115724233_2_alg».proof.Proof.KerHost
import proofs.«140371_j85925115724233_2_alg».proof.Proof.KerRun
import Idealize.ShloMosaic.Lib.KernelVsHost

noncomputable section

open scoped BigOperators

namespace Cert.KernelIdeal.Result

open Cert.KernelIdeal Cert.KernelIdeal.Gen Idealize.ShloMosaic Idealize.ShloMosaic.ValueIdx
open Cert.KernelIdeal.BlockProducts (rowProducts)
open Cert.KernelIdeal.Entry (tablePadded framesPadded)

/-- A padded table read at a row of the table is the table there. -/
theorem tablePadded_apply (table : FVec Ideal S2049x4096 .f32) (k : Fin 2049) (h : k.val < 2304) (n : Fin 4096) :
    tablePadded table (ix2 (⟨k.val, h⟩ : Fin 2304) n) = table (ix2 k n) := by
  unfold tablePadded
  show pad S2304x4096 ![0, 0] ![255, 0] ![0, 0] table _ pads_S2049x4096_S2304x4096_02550_000 h_S_ (ix2 (⟨k.val, h⟩ : Fin 2304) n) = _
  refine pad_apply_of_inside _ _ _ table _ _ _ _ (ix2 k n) (fun a => ?_)
  match a with
  | ⟨0, _⟩ => show k.val = 0 + k.val * (0 + 1); omega
  | ⟨1, _⟩ => show n.val = 0 + n.val * (0 + 1); omega

/-- Padded frames read at a frame of the batch are the frames there. -/
theorem framesPadded_apply (z : (⟨S_, .bf16⟩ : BufTy).Contents (Elt Ideal)) (fr : FVec Ideal S32x431x4096 .bf16)
    (b : Fin 32) (f : Fin 431) (h : f.val < 432) (n : Fin 4096) :
    framesPadded z fr (ix3 b (⟨f.val, h⟩ : Fin 432) n) = fr (ix3 b f n) := by
  unfold framesPadded
  refine pad_apply_of_inside _ _ _ fr _ _ _ _ (ix3 b f n) (fun a => ?_)
  match a with
  | ⟨0, _⟩ => show b.val = 0 + b.val * (0 + 1); omega
  | ⟨1, _⟩ => show f.val = 0 + f.val * (0 + 1); omega
  | ⟨2, _⟩ => show n.val = 0 + n.val * (0 + 1); omega

/-- The corner of the row products of a padded table and padded frames at `(b, k, f)`: the sum over `n` of
    `table (k, n) * frames (b, f, n)`. -/
theorem corner_rowProducts_apply (table : FVec Ideal S2049x4096 .f32) (z : (⟨S_, .bf16⟩ : BufTy).Contents (Elt Ideal))
    (fr : FVec Ideal S32x431x4096 .bf16) (b : Fin 32) (k : Fin 2049) (f : Fin 431) :
    corner (rowProducts (tablePadded table) (framesPadded z fr)) (ix3 b k f) = ∑ n : Fin 4096, table (ix2 k n) * fr (ix3 b f n) := by
  have hk : k.val < 2304 := by have := k.isLt; omega
  have hf : f.val < 432 := by have := f.isLt; omega
  unfold corner
  refine (extractStridedSlice_apply _ _ _ (ix3 b k f) (ix3 b (⟨k.val, hk⟩ : Fin 2304) (⟨f.val, hf⟩ : Fin 432)) (fun a => ?_)).trans ?_
  · match a with
    | ⟨0, _⟩ => show b.val = 0 + b.val; omega
    | ⟨1, _⟩ => show k.val = 0 + k.val; omega
    | ⟨2, _⟩ => show f.val = 0 + f.val; omega
  · unfold rowProducts
    refine Finset.sum_congr rfl fun n _ => ?_
    exact congrArg₂ (· * ·) (tablePadded_apply table k hk n) (framesPadded_apply z fr b f hf n)

end Cert.KernelIdeal.Result

end
-- ==== Proof.lean ====
/-
  A short-time Fourier transform as two matrix products, against its reference.

  Both programs pad a signal `x : [32, 1, 441000]` by reflection, cut it into 431 frames of 4096 samples at hops of 1024,
  and contract the frames against two `[2049, 4096]` tables over the 4096 window positions; entry `(b, k, f, 0)` of the
  result is the sum over `n` of `cos (k, n) * frames (b, f, n)`, entry `(b, k, f, 1)` the same with the other table.
  The reference does it with one contraction per table on the host. The kernel's program pads the frames with one
  frame per batch and the tables with 255 rows of zeros, multiplies a 256-row tile of a table against the 432 frames of
  one batch at each of 9 × 32 grid points (every row of the tile against every frame, into the zero accumulator), writes
  the product as one block of a `[32, 2304, 432]` array, and keeps that array's leading `[32, 2049, 431]` corner. On
  the extended reals a change of float format is the identity and both sides are the same sums of the same products in
  the same order, so no law of the extended reals beyond that is used, and the finiteness of the inputs is not needed.

  The frames are one function of the signal, stated once (Frames) and never opened: each program's host operations are
  read back as that function (RefRead for the reference, whose padding is a called function; KerHost for the arrays the
  kernel's region finds). Each output array after the region is the row products of the table and the frames the
  region finds, block by block (BlockProducts); the host operations after the region stack the two corners (KerRun); and
  index by index a corner of the row products is the reference's contraction (KerSpectrum, RefSpectrum).
-/
import proofs.«140371_j85925115724233_2_alg».proof.Defs
import proofs.«140371_j85925115724233_2_alg».proof.Proof.Gen.Kernel
import proofs.«140371_j85925115724233_2_alg».proof.Proof.Gen.Kernel.Skeleton
import proofs.«140371_j85925115724233_2_alg».proof.Proof.Gen.Kernel.Launch
import proofs.«140371_j85925115724233_2_alg».proof.Proof.Gen.Kernel.Points
import proofs.«140371_j85925115724233_2_alg».proof.Proof.Gen.Kernel.Frame
import proofs.«140371_j85925115724233_2_alg».proof.Proof.Gen.KernelIdeal
import proofs.«140371_j85925115724233_2_alg».proof.Proof.Gen.KernelIdeal.Skeleton
import proofs.«140371_j85925115724233_2_alg».proof.Proof.Gen.KernelIdeal.Launch
import proofs.«140371_j85925115724233_2_alg».proof.Proof.Gen.KernelIdeal.Points
import proofs.«140371_j85925115724233_2_alg».proof.Proof.Gen.KernelIdeal.Frame
import proofs.«140371_j85925115724233_2_alg».proof.Proof.Gen.ReferenceIdeal
import proofs.«140371_j85925115724233_2_alg».proof.Proof.Gen.Pre_finite_inputs
import proofs.«140371_j85925115724233_2_alg».proof.Proof.RefRead
import proofs.«140371_j85925115724233_2_alg».proof.Proof.RefSpectrum
import proofs.«140371_j85925115724233_2_alg».proof.Proof.KerHost
import proofs.«140371_j85925115724233_2_alg».proof.Proof.BlockProducts
import proofs.«140371_j85925115724233_2_alg».proof.Proof.KerRun
import proofs.«140371_j85925115724233_2_alg».proof.Proof.KerSpectrum
import Idealize.ShloMosaic.Adequacy
import Idealize.ShloMosaic.Init

noncomputable section

namespace Cert.Proof

open Idealize.ShloMosaic Idealize.ShloMosaic.TcCoe Idealize.SL.Sem Idealize.ShloMosaic.ValueIdx
open Cert.ReferenceIdeal.RefValue (out stacked spectrum frames)
open Cert.KernelIdeal.BlockProducts (rowProducts final3 final4)
open Cert.KernelIdeal.Entry (tablePadded framesPadded V_main_v19 V_main_v21 V_main_v23)
open Cert.KernelIdeal.Result (corner corner_rowProducts_apply)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- The corner of the row products of a padded table and padded frames is the reference's spectrum of the table and
    the frames: at every `(b, k, f)` both are the sum over `n` of `table (k, n) * frames (b, f, n)`. -/
theorem corner_eq_spectrum (table : FVec Ideal Cert.ReferenceIdeal.S2049x4096 .f32) (z : (⟨Cert.KernelIdeal.S_, .bf16⟩ : BufTy).Contents (Elt Ideal))
    (fr : FVec Ideal Cert.ReferenceIdeal.S32x431x4096 .f32) :
    corner (rowProducts (tablePadded table) (framesPadded z fr)) = spectrum (F := Ideal) table fr := by
  funext j
  obtain ⟨b, k, f, rfl⟩ : ∃ (b : Fin 32) (k : Fin 2049) (f : Fin 431), j = ix3 b k f := ⟨j 0, j 1, j 2, eq_ix3 j⟩
  exact (corner_rowProducts_apply table z fr b k f).trans (Cert.ReferenceIdeal.RefValue.spectrum_apply table fr b k f).symm

/-- Both programs end with the two tables' spectra of the frames of the signal, stacked. -/
theorem algebraic : Cert.algebraic_KernelIdeal_ReferenceIdeal := by
  intro m ρ m' ρ' _ hagree
  refine ⟨fun c => out (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.Result.run m ρ)
    obtain ⟨z, hz⟩ := V_main_v19 m c
    rw [final3, final4, V_main_v21, V_main_v23, hz, corner_eq_spectrum, corner_eq_spectrum]
    rfl
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
